-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2x4096x64 : Shape := ⟨3, ![2, 4096, 64]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x4096x64 : S_.BroadcastsInDim S2x4096x64 (![] : Fin 0 → Fin S2x4096x64.rank)
  reducesTo_S2x4096x64_S_d0_1_2 : S2x4096x64.ReducesTo [0, 1, 2] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x2048 .f32) (main_arg8 : FVec F S512 .f32) (main_arg9 : FVec F S512x2048 .f32) (main_arg10 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2048 .f32 := Host.absf main_arg9
  let main_cst_16 : FVec F S_ .f32 := constant S_ .f32 0x7F800000#32
  let main_v45 : FVec F S512x2048 .f32 := broadcastInDim S512x2048 ![] bcast_S_S512x2048 main_cst_16
  let main_v46 : IVec S512x2048 1 := cmpf .olt main_v44 main_v45
  let main_c_17 : IVec S_ 1 := constantI S_ 1 1#1
  let main_v47 : IVec S_ 1 := (fun x v => Host.reduce IntOp.andi x v reducesTo_S512x2048_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S512x2048 .f32) (main_arg8 : FVec F S512 .f32) (main_arg9 : FVec F S512x2048 .f32) (main_arg10 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x4096x2048 .f32) (main_arg1 : FVec F S2x4096x64 .f32) (main_arg2 : FVec F S2x4096x64 .f32) (main_arg3 : FVec F S2048 .f32) (main_arg4 : FVec F S2048 .f32) (main_arg5 : FVec F S2048x2048 .f32) (main_arg6 : FVec F S2048 .f32) (main_arg7 : FVec F S512x2048 .f32) (main_arg8 : FVec F S512 .f32) (main_arg9 : FVec F S512x2048 .f32) (main_arg10 : FVec F S512 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x4096x64 .f32 := Host.absf main_arg1
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_c_1 : IVec S_ 1 := constantI S_ 1 1#1
  let main_v7 : IVec S_ 1 := (fun x v => Host.reduce IntOp.andi x v reducesTo_S2x4096x64_S_d0_1_2 h_S_) main_v6 main_c_1
  let main_v8 : IVec S_ 1 := andi main_v3 main_v7
  let main_v9 : FVec F S2x4096x64 .f32 := Host.absf main_arg2
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_c_3 : IVec S_ 1 := constantI S_ 1 1#1
  let main_v12 : IVec S_ 1 := (fun x v => Host.reduce IntOp.andi x v reducesTo_S2x4096x64_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S2x4096x2048 : Shape := ⟨3, ![2, 4096, 2048]⟩
abbrev S2x4096x64 : Shape := ⟨3, ![2, 4096, 64]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S2048x512 : Shape := ⟨2, ![2048, 512]⟩
abbrev S2x32x4096x64 : Shape := ⟨4, ![2, 32, 4096, 64]⟩
abbrev S2x8x4096x64 : Shape := ⟨4, ![2, 8, 4096, 64]⟩
abbrev S1x256x2048 : Shape := ⟨3, ![1, 256, 2048]⟩
abbrev S1x256x64 : Shape := ⟨3, ![1, 256, 64]⟩
abbrev S1x32x256x64 : Shape := ⟨4, ![1, 32, 256, 64]⟩
abbrev S1x8x256x64 : Shape := ⟨4, ![1, 8, 256, 64]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x512 : Shape := ⟨2, ![256, 512]⟩
abbrev S1x512 : Shape := ⟨2, ![1, 512]⟩
abbrev S256x64 : Shape := ⟨2, ![256, 64]⟩
abbrev S256x32 : Shape := ⟨2, ![256, 32]⟩
abbrev S1x1x256x64 : Shape := ⟨4, ![1, 1, 256, 64]⟩

abbrev nBuf : Space → Nat
  | .hbm => 21
  | .vmem => 22
  | .smem => 0
  | _ => 0

abbrev bufTy : (tb : Table) → Fin (tcTables nBuf tb) → BufTy
  | .hbm, ⟨0, _⟩ => ⟨S2x4096x2048, .f32⟩
  | .hbm, ⟨1, _⟩ => ⟨S2x4096x64, .f32⟩
  | .hbm, ⟨2, _⟩ => ⟨S2x4096x64, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x2048, .f32⟩
  | .hbm, ⟨10, _⟩ => ⟨S512, .f32⟩
  | .hbm, ⟨11, _⟩ => ⟨S2048x2048, .f32⟩
  | .hbm, ⟨12, _⟩ => ⟨S2048x2048, .bf16⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S2048x512, .bf16⟩
  | .hbm, ⟨17, _⟩ => ⟨S2x4096x2048, .f32⟩
  | .hbm, ⟨18, _⟩ => ⟨S2x32x4096x64, .f32⟩
  | .hbm, ⟨19, _⟩ => ⟨S2x8x4096x64, .f32⟩
  | .hbm, ⟨20, _⟩ => ⟨S2x8x4096x64, .f32⟩
  | .local _ .vmem, ⟨0, _⟩ => ⟨S1x256x2048, .f32⟩
  | .local _ .vmem, ⟨1, _⟩ => ⟨S1x256x2048, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S2048, .f32⟩
  | .local _ .vmem, ⟨7, _⟩ => ⟨S2048, .f32⟩
  | .local _ .vmem, ⟨8, _⟩ => ⟨S2048x2048, .bf16⟩
  | .local _ .vmem, ⟨9, _⟩ => ⟨S2048, .f32⟩
  | .local _ .vmem, ⟨10, _⟩ => ⟨S2048x512, .bf16⟩
  | .local _ .vmem, ⟨11, _⟩ => ⟨S512, .f32⟩
  | .local _ .vmem, ⟨12, _⟩ => ⟨S2048x512, .bf16⟩
  | .local _ .vmem, ⟨13, _⟩ => ⟨S512, .f32⟩
  | .local _ .vmem, ⟨14, _⟩ => ⟨S1x256x2048, .f32⟩
  | .local _ .vmem, ⟨15, _⟩ => ⟨S1x256x2048, .f32⟩
  | .local _ .vmem, ⟨16, _⟩ => ⟨S1x32x256x64, .f32⟩
  | .local _ .vmem, ⟨17, _⟩ => ⟨S1x32x256x64, .f32⟩
  | .local _ .vmem, ⟨18, _⟩ => ⟨S1x8x256x64, .f32⟩
  | .local _ .vmem, ⟨19, _⟩ => ⟨S1x8x256x64, .f32⟩
  | .local _ .vmem, ⟨20, _⟩ => ⟨S1x8x256x64, .f32⟩
  | .local _ .vmem, ⟨21, _⟩ => ⟨S1x8x256x64, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  transposes_S2048x2048_S2048x2048_1_0 : S2048x2048.Transposes [1, 0] S2048x2048
  bitsLt_bf16_f32 : FTy.bits .bf16 < FTy.bits .f32
  transposes_S512x2048_S2048x512_1_0 : S512x2048.Transposes [1, 0] S2048x512
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  slices_S256x2048_o0_0_S256x64 : S256x2048.Slices ![0, 0] S256x64
  slices_S256x64_o0_0_S256x32 : S256x64.Slices ![0, 0] S256x32
  slices_S256x64_o0_32_S256x32 : S256x64.Slices ![0, 32] S256x32
  concatenates_S256x32_S256x32_S256x64_d1 : Shape.Concatenates [S256x32, S256x32] S256x64 1
  inb_S1x32x256x64_S1x1x256x64_0_0_0_0 : ∀ a, (![0, 0, 0, 0] : Fin 4 → Nat) a + S1x1x256x64.size a ≤ S1x32x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  slices_S256x2048_o0_64_S256x64 : S256x2048.Slices ![0, 64] S256x64
  inb_S1x32x256x64_S1x1x256x64_0_1_0_0 : ∀ a, (![0, 1, 0, 0] : Fin 4 → Nat) a + S1x1x256x64.size a ≤ S1x32x256x64.size a
  slices_S256x2048_o0_128_S256x64 : S256x2048.Slices ![0, 128] S256x64
  inb_S1x32x256x64_S1x1x256x64_0_2_0_0 : ∀ a, (![0, 2, 0, 0] : Fin 4 → Nat) a + S1x1x256x64.size a ≤ S1x32x256x64.size a
  slices_S256x2048_o0_192_S256x64 : S256x2048.Slices ![0, 192] S256x64
  inb_S1x32x256x64_S1x1x256x64_0_3_0_0 : ∀ a, (![0, 3, 0, 0] : Fin 4 → Nat) a + S1x1x256x64.size a ≤ S1x32x256x64.size a
  slices_S256x2048_o0_256_S256x64 : S256x2048.Slices ![0, 256] S256x64
  inb_S1x32x256x64_S1x1x256x64_0_4_0_0 : ∀ a, (![0, 4, 0, 0] : Fin 4 → Nat) a + S1x1x256x64.size a ≤ S1x32x256x64.size a
  slices_S256x2048_o0_320_S256x64 : S256x2048.Slices ![0, 320] S256x64
  inb_S1x32x256x64_S1x1x256x64_0_5_0_0 : ∀ a, (![0, 5, 0, 0] : Fin 4 → Nat) a + S1x1x256x64.size a ≤ S1x32x256x64.size a
  slices_S256x2048_o0_384_S256x64 : S256x2048.Slices ![0, 384] S256x64
  inb_S1x32x256x64_S1x1x256x64_0_6_0_0 : ∀ a, (![0, 6, 0, 0] : Fin 4 → Nat) a + S1x1x256x64.size a ≤ S1x32x256x64.size a
  slices_S256x2048_o0_448_S256x64 : S256x2048.Slices ![0, 448] S256x64
  inb_S1x32x256x64_S1x1x256x64_0_7_0_0 : ∀ a, (![0, 7, 0, 0] : Fin 4 → Nat) a + S1x1x256x64.size a ≤ S1x32x256x64.size a
  slices_S256x2048_o0_512_S256x64 : S256x2048.Slices ![0, 512] S256x64
  inb_S1x32x256x64_S1x1x256x64_0_8_0_0 : ∀ a, (![0, 8, 0, 0] : Fin 4 → Nat) a + S1x1x256x64.size a ≤ S1x32x256x64.size a
  slices_S256x2048_o0_576_S256x64 : S256x2048.Slices ![0, 576] S256x64
  inb_S1x32x256x64_S1x1x256x64_0_9_0_0 : ∀ a, (![0, 9, 0, 0] : Fin 4 → Nat) a + S1x1x256x64.size a ≤ S1x32x256x64.size a
  slices_S256x2048_o0_640_S256x64 : S256x2048.Slices ![0, 640] S256x64
  inb_S1x32x256x64_S1x1x256x64_0_10_0_0 : ∀ a, (![0, 10, 0, 0] : Fin 4 → Nat) a + S1x1x256x64.size a ≤ S1x32x256x64.size a
  slices_S256x2048_o0_704_S256x64 : S256x2048.Slices ![0, 704] S256x64
  inb_S1x32x256x64_S1x1x256x64_0_11_0_0 : ∀ a, (![0, 11, 0, 0] : Fin 4 → Nat) a + S1x1x256x64.size a ≤ S1x32x256x64.size a
  slices_S256x2048_o0_768_S256x64 : S256x2048.Slices ![0, 768] S256x64
  inb_S1x32x256x64_S1x1x256x64_0_12_0_0 : ∀ a, (![0, 12, 0, 0] : Fin 4 → Nat) a + S1x1x256x64.size a ≤ S1x32x256x64.size a
  slices_S256x2048_o0_832_S256x64 : S256x2048.Slices ![0, 832] S256x64
  inb_S1x32x256x64_S1x1x256x64_0_13_0_0 : ∀ a, (![0, 13, 0, 0] : Fin 4 → Nat) a + S1x1x256x64.size a ≤ S1x32x256x64.size a
  slices_S256x2048_o0_896_S256x64 : S256x2048.Slices ![0, 896] S256x64
  inb_S1x32x256x64_S1x1x256x64_0_14_0_0 : ∀ a, (![0, 14, 0, 0] : Fin 4 → Nat) a + S1x1x256x64.size a ≤ S1x32x256x64.size a
  slices_S256x2048_o0_960_S256x64 : S256x2048.Slices ![0, 960] S256x64
  inb_S1x32x256x64_S1x1x256x64_0_15_0_0 : ∀ a, (![0, 15, 0, 0] : Fin 4 → Nat) a + S1x1x256x64.size a ≤ S1x32x256x64.size a
  slices_S256x2048_o0_1024_S256x64 : S256x2048.Slices ![0, 1024] S256x64
  inb_S1x32x256x64_S1x1x256x64_0_16_0_0 : ∀ a, (![0, 16, 0, 0] : Fin 4 → Nat) a + S1x1x256x64.size a ≤ S1x32x256x64.size a
  slices_S256x2048_o0_1088_S256x64 : S256x2048.Slices ![0, 1088] S256x64
  inb_S1x32x256x64_S1x1x256x64_0_17_0_0 : ∀ a, (![0, 17, 0, 0] : Fin 4 → Nat) a + S1x1x256x64.size a ≤ S1x32x256x64.size a
  slices_S256x2048_o0_1152_S256x64 : S256x2048.Slices ![0, 1152] S256x64
  inb_S1x32x256x64_S1x1x256x64_0_18_0_0 : ∀ a, (![0, 18, 0, 0] : Fin 4 → Nat) a + S1x1x256x64.size a ≤ S1x32x256x64.size a
  slices_S256x2048_o0_1216_S256x64 : S256x2048.Slices ![0, 1216] S256x64
  inb_S1x32x256x64_S1x1x256x64_0_19_0_0 : ∀ a, (![0, 19, 0, 0] : Fin 4 → Nat) a + S1x1x256x64.size a ≤ S1x32x256x64.size a
  slices_S256x2048_o0_1280_S256x64 : S256x2048.Slices ![0, 1280] S256x64
  inb_S1x32x256x64_S1x1x256x64_0_20_0_0 : ∀ a, (![0, 20, 0, 0] : Fin 4 → Nat) a + S1x1x256x64.size a ≤ S1x32x256x64.size a
  slices_S256x2048_o0_1344_S256x64 : S256x2048.Slices ![0, 1344] S256x64
  inb_S1x32x256x64_S1x1x256x64_0_21_0_0 : ∀ a, (![0, 21, 0, 0] : Fin 4 → Nat) a + S1x1x256x64.size a ≤ S1x32x256x64.size a
  slices_S256x2048_o0_1408_S256x64 : S256x2048.Slices ![0, 1408] S256x64
  inb_S1x32x256x64_S1x1x256x64_0_22_0_0 : ∀ a, (![0, 22, 0, 0] : Fin 4 → Nat) a + S1x1x256x64.size a ≤ S1x32x256x64.size a
  slices_S256x2048_o0_1472_S256x64 : S256x2048.Slices ![0, 1472] S256x64
  inb_S1x32x256x64_S1x1x256x64_0_23_0_0 : ∀ a, (![0, 23, 0, 0] : Fin 4 → Nat) a + S1x1x256x64.size a ≤ S1x32x256x64.size a
  slices_S256x2048_o0_1536_S256x64 : S256x2048.Slices ![0, 1536] S256x64
  inb_S1x32x256x64_S1x1x256x64_0_24_0_0 : ∀ a, (![0, 24, 0, 0] : Fin 4 → Nat) a + S1x1x256x64.size a ≤ S1x32x256x64.size a
  slices_S256x2048_o0_1600_S256x64 : S256x2048.Slices ![0, 1600] S256x64
  inb_S1x32x256x64_S1x1x256x64_0_25_0_0 : ∀ a, (![0, 25, 0, 0] : Fin 4 → Nat) a + S1x1x256x64.size a ≤ S1x32x256x64.size a
  slices_S256x2048_o0_1664_S256x64 : S256x2048.Slices ![0, 1664] S256x64
  inb_S1x32x256x64_S1x1x256x64_0_26_0_0 : ∀ a, (![0, 26, 0, 0] : Fin 4 → Nat) a + S1x1x256x64.size a ≤ S1x32x256x64.size a
  slices_S256x2048_o0_1728_S256x64 : S256x2048.Slices ![0, 1728] S256x64
  inb_S1x32x256x64_S1x1x256x64_0_27_0_0 : ∀ a, (![0, 27, 0, 0] : Fin 4 → Nat) a + S1x1x256x64.size a ≤ S1x32x256x64.size a
  slices_S256x2048_o0_1792_S256x64 : S256x2048.Slices ![0, 1792] S256x64
  inb_S1x32x256x64_S1x1x256x64_0_28_0_0 : ∀ a, (![0, 28, 0, 0] : Fin 4 → Nat) a + S1x1x256x64.size a ≤ S1x32x256x64.size a
  slices_S256x2048_o0_1856_S256x64 : S256x2048.Slices ![0, 1856] S256x64
  inb_S1x32x256x64_S1x1x256x64_0_29_0_0 : ∀ a, (![0, 29, 0, 0] : Fin 4 → Nat) a + S1x1x256x64.size a ≤ S1x32x256x64.size a
  slices_S256x2048_o0_1920_S256x64 : S256x2048.Slices ![0, 1920] S256x64
  inb_S1x32x256x64_S1x1x256x64_0_30_0_0 : ∀ a, (![0, 30, 0, 0] : Fin 4 → Nat) a + S1x1x256x64.size a ≤ S1x32x256x64.size a
  slices_S256x2048_o0_1984_S256x64 : S256x2048.Slices ![0, 1984] S256x64
  inb_S1x32x256x64_S1x1x256x64_0_31_0_0 : ∀ a, (![0, 31, 0, 0] : Fin 4 → Nat) a + S1x1x256x64.size a ≤ S1x32x256x64.size a
  slices_S256x512_o0_0_S256x64 : S256x512.Slices ![0, 0] S256x64
  inb_S1x8x256x64_S1x1x256x64_0_0_0_0 : ∀ a, (![0, 0, 0, 0] : Fin 4 → Nat) a + S1x1x256x64.size a ≤ S1x8x256x64.size a
  slices_S256x512_o0_64_S256x64 : S256x512.Slices ![0, 64] S256x64
  inb_S1x8x256x64_S1x1x256x64_0_1_0_0 : ∀ a, (![0, 1, 0, 0] : Fin 4 → Nat) a + S1x1x256x64.size a ≤ S1x8x256x64.size a
  slices_S256x512_o0_128_S256x64 : S256x512.Slices ![0, 128] S256x64
  inb_S1x8x256x64_S1x1x256x64_0_2_0_0 : ∀ a, (![0, 2, 0, 0] : Fin 4 → Nat) a + S1x1x256x64.size a ≤ S1x8x256x64.size a
  slices_S256x512_o0_192_S256x64 : S256x512.Slices ![0, 192] S256x64
  inb_S1x8x256x64_S1x1x256x64_0_3_0_0 : ∀ a, (![0, 3, 0, 0] : Fin 4 → Nat) a + S1x1x256x64.size a ≤ S1x8x256x64.size a
  slices_S256x512_o0_256_S256x64 : S256x512.Slices ![0, 256] S256x64
  inb_S1x8x256x64_S1x1x256x64_0_4_0_0 : ∀ a, (![0, 4, 0, 0] : Fin 4 → Nat) a + S1x1x256x64.size a ≤ S1x8x256x64.size a
  slices_S256x512_o0_320_S256x64 : S256x512.Slices ![0, 320] S256x64
  inb_S1x8x256x64_S1x1x256x64_0_5_0_0 : ∀ a, (![0, 5, 0, 0] : Fin 4 → Nat) a + S1x1x256x64.size a ≤ S1x8x256x64.size a
  slices_S256x512_o0_384_S256x64 : S256x512.Slices ![0, 384] S256x64
  inb_S1x8x256x64_S1x1x256x64_0_6_0_0 : ∀ a, (![0, 6, 0, 0] : Fin 4 → Nat) a + S1x1x256x64.size a ≤ S1x8x256x64.size a
  slices_S256x512_o0_448_S256x64 : S256x512.Slices ![0, 448] S256x64
  inb_S1x8x256x64_S1x1x256x64_0_7_0_0 : ∀ a, (![0, 7, 0, 0] : Fin 4 → Nat) a + S1x1x256x64.size a ≤ S1x8x256x64.size a
  shapeCasts_S256x2048_S1x256x2048 : S256x2048.ShapeCasts S1x256x2048
  dot_S256x2048_S2048x2048_S256x2048_1_0_0_1_n_n_wf : DotDims.WF S256x2048 S2048x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x4096x2048.size a
  hwx0_0 : ∀ i : grid0.Coords, EltTy.bits .f32 = 32 ∨ (Rect.block (s := S2x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S2x4096x64.size a
  hwx0_1 : ∀ i : grid0.Coords, EltTy.bits .f32 = 32 ∨ (Rect.block (s := S2x4096x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S2x4096x64.size a
  hwx0_2 : ∀ i : grid0.Coords, EltTy.bits .f32 = 32 ∨ (Rect.block (s := S2x4096x64) S1x256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x2048.size a ≤ S2x4096x2048.size a
  hwx0_11 : ∀ i : grid0.Coords, EltTy.bits .f32 = 32 ∨ (Rect.block (s := S2x4096x2048) S1x256x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x256x64.size a ≤ S2x32x4096x64.size a
  hwx0_12 : ∀ i : grid0.Coords, EltTy.bits .f32 = 32 ∨ (Rect.block (s := S2x32x4096x64) S1x32x256x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x256x64.size a ≤ S2x8x4096x64.size a
  hwx0_13 : ∀ i : grid0.Coords, EltTy.bits .f32 = 32 ∨ (Rect.block (s := S2x8x4096x64) S1x8x256x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x8x256x64.size a ≤ S2x8x4096x64.size a
  hwx0_14 : ∀ i : grid0.Coords, EltTy.bits .f32 = 32 ∨ (Rect.block (s := S2x8x4096x64) S1x8x256x64.size (cc0_transform_14 i) (hinb0_14 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S1x256x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S1x32x256x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6_2) S1x8x256x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_3) S1x8x256x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2x4096x64 : Shape := ⟨3, ![2, 4096, 64]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x512 : Shape := ⟨3, ![2, 4096, 512]⟩
abbrev S1x1x512 : Shape := ⟨3, ![1, 1, 512]⟩
abbrev S2x4096x32x64 : Shape := ⟨4, ![2, 4096, 32, 64]⟩
abbrev S2x32x4096x64 : Shape := ⟨4, ![2, 32, 4096, 64]⟩
abbrev S2x4096x8x64 : Shape := ⟨4, ![2, 4096, 8, 64]⟩
abbrev S2x8x4096x64 : Shape := ⟨4, ![2, 8, 4096, 64]⟩
abbrev S2x1x4096x64 : Shape := ⟨4, ![2, 1, 4096, 64]⟩
abbrev S2x32x4096x32 : Shape := ⟨4, ![2, 32, 4096, 32]⟩
abbrev S2x8x4096x32 : Shape := ⟨4, ![2, 8, 4096, 32]⟩

abbrev nBuf : Space → Nat
  | .hbm => 78
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x64, .f32⟩
  | .hbm, ⟨2, _⟩ => ⟨S2x4096x64, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x2048, .f32⟩
  | .hbm, ⟨10, _⟩ => ⟨S512, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2x4096x2048, .f32⟩
  | .hbm, ⟨36, _⟩ => ⟨S2x4096x2048, .f32⟩
  | .hbm, ⟨37, _⟩ => ⟨S1x1x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S1x1x2048, .f32⟩
  | .hbm, ⟨42, _⟩ => ⟨S2x4096x2048, .f32⟩
  | .hbm, ⟨43, _⟩ => ⟨S2x4096x2048, .f32⟩
  | .hbm, ⟨44, _⟩ => ⟨S2x4096x512, .f32⟩
  | .hbm, ⟨45, _⟩ => ⟨S1x1x512, .f32⟩
  | .hbm, ⟨46, _⟩ => ⟨S2x4096x512, .f32⟩
  | .hbm, ⟨47, _⟩ => ⟨S2x4096x512, .f32⟩
  | .hbm, ⟨48, _⟩ => ⟨S2x4096x512, .f32⟩
  | .hbm, ⟨49, _⟩ => ⟨S1x1x512, .f32⟩
  | .hbm, ⟨50, _⟩ => ⟨S2x4096x512, .f32⟩
  | .hbm, ⟨51, _⟩ => ⟨S2x4096x512, .f32⟩
  | .hbm, ⟨52, _⟩ => ⟨S2x4096x32x64, .f32⟩
  | .hbm, ⟨53, _⟩ => ⟨S2x32x4096x64, .f32⟩
  | .hbm, ⟨54, _⟩ => ⟨S2x4096x8x64, .f32⟩
  | .hbm, ⟨55, _⟩ => ⟨S2x8x4096x64, .f32⟩
  | .hbm, ⟨56, _⟩ => ⟨S2x4096x8x64, .f32⟩
  | .hbm, ⟨57, _⟩ => ⟨S2x8x4096x64, .f32⟩
  | .hbm, ⟨58, _⟩ => ⟨S2x1x4096x64, .f32⟩
  | .hbm, ⟨59, _⟩ => ⟨S2x1x4096x64, .f32⟩
  | .hbm, ⟨60, _⟩ => ⟨S2x32x4096x64, .f32⟩
  | .hbm, ⟨61, _⟩ => ⟨S2x32x4096x64, .f32⟩
  | .hbm, ⟨62, _⟩ => ⟨S2x32x4096x32, .f32⟩
  | .hbm, ⟨63, _⟩ => ⟨S2x32x4096x32, .f32⟩
  | .hbm, ⟨64, _⟩ => ⟨S2x32x4096x32, .f32⟩
  | .hbm, ⟨65, _⟩ => ⟨S2x32x4096x64, .f32⟩
  | .hbm, ⟨66, _⟩ => ⟨S2x32x4096x64, .f32⟩
  | .hbm, ⟨67, _⟩ => ⟨S2x32x4096x64, .f32⟩
  | .hbm, ⟨68, _⟩ => ⟨S2x32x4096x64, .f32⟩
  | .hbm, ⟨69, _⟩ => ⟨S2x8x4096x64, .f32⟩
  | .hbm, ⟨70, _⟩ => ⟨S2x8x4096x64, .f32⟩
  | .hbm, ⟨71, _⟩ => ⟨S2x8x4096x32, .f32⟩
  | .hbm, ⟨72, _⟩ => ⟨S2x8x4096x32, .f32⟩
  | .hbm, ⟨73, _⟩ => ⟨S2x8x4096x32, .f32⟩
  | .hbm, ⟨74, _⟩ => ⟨S2x8x4096x64, .f32⟩
  | .hbm, ⟨75, _⟩ => ⟨S2x8x4096x64, .f32⟩
  | .hbm, ⟨76, _⟩ => ⟨S2x8x4096x64, .f32⟩
  | .hbm, ⟨77, _⟩ => ⟨S2x8x4096x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  shapeCasts_S2x4096x2048_S2x4096x32x64 : S2x4096x2048.ShapeCasts S2x4096x32x64
  transposes_S2x4096x32x64_S2x32x4096x64_0_2_1_3 : S2x4096x32x64.Transposes [0, 2, 1, 3] S2x32x4096x64
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S2x4096x64_S2x1x4096x64_0_2_3 : S2x4096x64.BroadcastsInDim S2x1x4096x64 (![0, 2, 3] : Fin 3 → Fin S2x1x4096x64.rank)
  bcast_S2x1x4096x64_S2x32x4096x64_0_1_2_3 : S2x1x4096x64.BroadcastsInDim S2x32x4096x64 (![0, 1, 2, 3] : Fin 4 → Fin S2x32x4096x64.rank)
  slices_S2x32x4096x64_S2x32x4096x32_0_0_0_0 : S2x32x4096x64.Slices ![0, 0, 0, 0] S2x32x4096x32
  slices_S2x32x4096x64_S2x32x4096x32_0_0_0_32 : S2x32x4096x64.Slices ![0, 0, 0, 32] S2x32x4096x32
  concatenates_S2x32x4096x32_S2x32x4096x32_S2x32x4096x64_d3 : Shape.Concatenates [S2x32x4096x32, S2x32x4096x32] S2x32x4096x64 3
  bcast_S2x1x4096x64_S2x8x4096x64_0_1_2_3 : S2x1x4096x64.BroadcastsInDim S2x8x4096x64 (![0, 1, 2, 3] : Fin 4 → Fin S2x8x4096x64.rank)
  slices_S2x8x4096x64_S2x8x4096x32_0_0_0_0 : S2x8x4096x64.Slices ![0, 0, 0, 0] S2x8x4096x32
  slices_S2x8x4096x64_S2x8x4096x32_0_0_0_32 : S2x8x4096x64.Slices ![0, 0, 0, 32] S2x8x4096x32
  concatenates_S2x8x4096x32_S2x8x4096x32_S2x8x4096x64_d3 : Shape.Concatenates [S2x8x4096x32, S2x8x4096x32] S2x8x4096x64 3
  dot_S2x4096x2048_S2048x2048_S2x4096x2048_2_1_01_0_n_n_wf : DotDims.WF S2x4096x2048 S2048x2048 S2x4096x2048 [2] [1] [0, 1] [0] [] []
  dot_S2x4096x2048_S512x2048_S2x4096x512_2_1_01_0_n_n_wf : DotDims.WF S2x4096x2048 S512x2048 S2x4096x512 [2] [1] [0, 1] [0] [] []

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf
def dot_S2x4096x2048_S512x2048_S2x4096x512_2_1_01_0_n_n : DotDims S2x4096x2048 S512x2048 S2x4096x512 where
  lhsContracting := [2]
  rhsContracting := [1]
  lhsNonContracting := [0, 1]
  rhsNonContracting := [0]
  lhsBatch := []
  rhsBatch := []
  wf := dot_S2x4096x2048_S512x2048_S2x4096x512_2_1_01_0_n_n_wf

class Facts : Prop extends Facts₀ where

variable [Facts]
-- ==== Proof.Spec.lean ====
/-
  The layer head as mathematics, over the extended reals.

  One row v of 2048 entries is normalised (its mean and its variance are sums over the row divided by the
  constant 2048; the row is centred, scaled by the reciprocal square root of variance + ε, multiplied entry by
  entry by a weight vector and shifted by a bias vector), then projected: output entry o of a projection is
  the sum over k of the normalised row at k times row o of the weight matrix at k, plus a bias at o.  A
  projected row is cut into heads of 64 consecutive entries; the rotary embedding of a head y with angle
  tables c and s is  y d · c d + rot y d · s d,  where rot y is the head with its two halves exchanged and the
  half moved to the front negated:  rot y d = −y (d + 32)  for d < 32,  rot y d = y (d − 32)  otherwise.

  The four results, as whole arrays read at an index: the input itself; the rotated query heads
  (batch, head, position, entry); the rotated key heads; the value heads (projected, cut into heads, not
  rotated).  Every function here is stated row by row, so a block of rows of an array is treated exactly as
  the whole array is.
-/
import Idealize.ShloMosaic.PureOps.Ideal
import Idealize.ShloMosaic.Lib.ValueIdx

noncomputable section

namespace Cert.LayerHead

open Idealize.ShloMosaic Idealize.ShloMosaic.ValueIdx
open scoped BigOperators

/-- The row length, 2048, as both programs spell it. -/
abbrev rowLen : EReal := Ideal.ofBits .f32 0x45000000#32
/-- The variance offset ε, as both programs spell it. -/
abbrev varEps : EReal := Ideal.ofBits .f32 0x3727C5AC#32

/-- The mean of a row. -/
def mean (v : Fin 2048 → EReal) : EReal := Ideal.div (∑ k : Fin 2048, v k) rowLen

/-- The variance of a row: the mean of the squares of the centred entries. -/
def variance (v : Fin 2048 → EReal) : EReal :=
  Ideal.div (∑ k : Fin 2048, (v k - mean v) * (v k - mean v)) rowLen

/-- The normalised row: centred, scaled, weighted, shifted. -/
def normed (v w b : Fin 2048 → EReal) (k : Fin 2048) : EReal :=
  (v k - mean v) * Ideal.rsqrt (variance v + varEps) * w k + b k

/-- One output entry of a projection: a row against one row of the weight matrix, plus the bias there. -/
def proj (h wrow : Fin 2048 → EReal) (bias : EReal) : EReal := (∑ k : Fin 2048, h k * wrow k) + bias

/-- A head with its halves exchanged, the half moved to the front negated. -/
def rot (y : Fin 64 → EReal) (d : Fin 64) : EReal :=
  if h : d.val < 32 then -(y ⟨d.val + 32, by omega⟩) else y ⟨d.val - 32, by omega⟩

/-- The rotary embedding of a head. -/
def rope (y c s : Fin 64 → EReal) (d : Fin 64) : EReal := y d * c d + rot y d * s d

/-- Entry d of head hh of a row of n heads (N = n · 64 columns) sits at column hh · 64 + d of the row. -/
def headCol {n N : Nat} (hN : n * 64 = N) (hh : Fin n) (d : Fin 64) : Fin N :=
  ⟨hh.val * 64 + d.val, by have := hh.isLt; have := d.isLt; omega⟩

theorem headCol_val {n N : Nat} (hN : n * 64 = N) (hh : Fin n) (d : Fin 64) :
    (headCol hN hh d).val = hh.val * 64 + d.val := rfl

section Arrays

variable (x : (⟨3, ![2, 4096, 2048]⟩ : Shape).Idx → EReal)
  (cosT sinT : (⟨3, ![2, 4096, 64]⟩ : Shape).Idx → EReal)
  (lnW lnB : (⟨1, ![2048]⟩ : Shape).Idx → EReal)

/-- Row (b, s) of the input, normalised. -/
def normedRow (b : Fin 2) (s : Fin 4096) : Fin 2048 → EReal :=
  normed (fun k => x (ix3 b s k)) (fun k => lnW (ix1 k)) (fun k => lnB (ix1 k))

/-- Row (b, s) projected by a weight matrix of N rows and a bias of N entries. -/
def projRow {N : Nat} (W : (⟨2, ![N, 2048]⟩ : Shape).Idx → EReal) (bias : (⟨1, ![N]⟩ : Shape).Idx → EReal)
    (b : Fin 2) (s : Fin 4096) (o : Fin N) : EReal :=
  proj (normedRow x lnW lnB b s) (fun k => W (ix2 o k)) (bias (ix1 o))

/-- The heads of a projection, rotated: entry (b, hh, s, d). -/
def ropedHeads {n N : Nat} (hN : n * 64 = N) (W : (⟨2, ![N, 2048]⟩ : Shape).Idx → EReal)
    (bias : (⟨1, ![N]⟩ : Shape).Idx → EReal) (b : Fin 2) (hh : Fin n) (s : Fin 4096) (d : Fin 64) : EReal :=
  rope (fun e => projRow x lnW lnB W bias b s (headCol hN hh e)) (fun e => cosT (ix3 b s e)) (fun e => sinT (ix3 b s e)) d

/-- The heads of a projection, not rotated: entry (b, hh, s, d). -/
def plainHeads {n N : Nat} (hN : n * 64 = N) (W : (⟨2, ![N, 2048]⟩ : Shape).Idx → EReal)
    (bias : (⟨1, ![N]⟩ : Shape).Idx → EReal) (b : Fin 2) (hh : Fin n) (s : Fin 4096) (d : Fin 64) : EReal :=
  projRow x lnW lnB W bias b s (headCol hN hh d)

end Arrays

end Cert.LayerHead

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.Layer.lean ====
/-
  What the body computes on a block of 256 rows, read at one entry.

  The block arrives with a leading unit axis; dropping it, row r of the block is a row of 2048 entries.  The two
  lane sums are sums over the row; each is kept as a one-column array and spread back over the row, so at entry
  (r, k) the centred value, the scale and the weights are those of row r and column k: the entry is the
  normalised row at k.  Rounding the normalised block to a narrower format changes nothing over the extended
  reals.  A plain product of the block with a [2048, N] matrix into the zero block, plus a bias vector laid out as
  one row and spread over the rows, is at (r, c) the sum over k of the normalised row r at k times the matrix at
  (k, c), plus the bias at c: one projection entry.
-/
import proofs.«172209_j10256381903693_1_alg».proof.Proof.Gen.KernelIdeal.Skeleton
import proofs.«172209_j10256381903693_1_alg».proof.Proof.Spec
import proofs.«172209_j10256381903693_1_alg».proof.Proof.LibMatmulPlain
import proofs.«172209_j10256381903693_1_alg».proof.Proof.LibColumnLayout
import Idealize.ShloMosaic.Lib.ValueLayout
import Idealize.ShloMosaic.Lib.ValueIdx
import Idealize.ShloMosaic.PureOps.Ideal.Laws

noncomputable section

namespace Cert.LayerHead.Body

open Cert.KernelIdeal Cert.KernelIdeal.Gen Cert.LayerHead
open Idealize.ShloMosaic Idealize.ShloMosaic.ValueIdx Idealize.ShloMosaic.MatmulPlain
open scoped BigOperators

/-- Row r of a block that carries a leading unit axis. -/
def blockRow (P : Vec Ideal S1x256x2048 .f32) (r : Fin 256) : Fin 2048 → EReal := fun k => P (ix3 (0 : Fin 1) r k)

/-- A vector of 2048 entries as a function of its coordinate. -/
def vecFn {n : Nat} (P : Vec Ideal ⟨1, ![n]⟩ .f32) : Fin n → EReal := fun k => P (ix1 k)

theorem rsqrt_at {s : Shape} (a : FVec Ideal s .f32) (i : s.Idx) : rsqrt a i = Ideal.rsqrt (a i) := rfl

/-- The sum along the lanes of a [256, 2048] block, at row r: the sum over the row. -/
theorem laneSum (X : FVec Ideal S256x2048 .f32) (r : Fin 256) :
    multiReduction .add [1] S256 X 0x00000000#32 reduces_S256x2048_S256 (.inl rfl) rfl (ix1 r)
      = ∑ k : Fin 2048, X (ix2 r k) :=
  (Ideal.multiReduction_add_single X 0x00000000#32 reduces_S256x2048_S256 (.inl rfl) rfl (ix1 r)).trans
    (Finset.sum_congr rfl fun k _ => congrArg X (funext fun a => Fin.ext (by
      match a with
      | ⟨0, _⟩ => rfl
      | ⟨1, _⟩ => rfl)))

/-- A per-row quantity kept as one column and spread over the row: at (r, k) it is the quantity of row r. -/
theorem spreadCol (c : FVec Ideal S256 .f32) (f : EReal → EReal) (r : Fin 256) (k : Fin 2048) :
    broadcastTo S256x2048 (fun i => f (shapeCast S256x1 c shapeCasts_S256_S256x1 i)) broadcasts_S256x1_S256x2048 (ix2 r k)
      = f (c (ix1 r)) :=
  (Cert.ColumnLayout.broadcastTo_a1_ab_apply _ broadcasts_S256x1_S256x2048 r k).trans
    (congrArg f (Cert.ColumnLayout.shapeCast_a_a1_apply c shapeCasts_S256_S256x1 r 0))

/-- The block with its leading unit axis dropped, at (r, k). -/
theorem dropLead (P : Vec Ideal S1x256x2048 .f32) (r : Fin 256) (k : Fin 2048) :
    shapeCast S256x2048 P shapeCasts_S1x256x2048_S256x2048 (ix2 r k) = blockRow P r k :=
  shapeCast_1ab_ab_apply P shapeCasts_S1x256x2048_S256x2048 r k

/-- A vector laid out as one row and spread over the rows, at (r, k): the vector at k. -/
theorem spreadRow {n : Nat} (P : Vec Ideal ⟨1, ![n]⟩ .f32) (hc : (⟨1, ![n]⟩ : Shape).ShapeCasts ⟨2, ![1, n]⟩)
    (hb : (⟨2, ![1, n]⟩ : Shape).Broadcasts ⟨2, ![256, n]⟩) (r : Fin 256) (k : Fin n) :
    broadcastTo ⟨2, ![256, n]⟩ (shapeCast ⟨2, ![1, n]⟩ P hc) hb (ix2 r k) = vecFn P k :=
  (broadcastTo_1b_ab_apply _ hb r k).trans (shapeCast_a_1a_apply P hc 0 k)

/-- The mean of each row, kept as a column and spread over the row: at (r, k) the row sum over the row length. -/
theorem meanSpread (X : FVec Ideal S256x2048 .f32) (r : Fin 256) (k : Fin 2048) :
    broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048 (ix2 r k)
      = mean (fun j => X (ix2 r j)) :=
  (spreadCol _ (fun t => Ideal.div t rowLen) r k).trans (congrArg (fun t => Ideal.div t rowLen) (laneSum X r))

/-- The scale of each row — the reciprocal square root of (row mean of Y) + ε — spread over the row. -/
theorem scaleSpread (Y : FVec Ideal S256x2048 .f32) (r : Fin 256) (k : Fin 2048) :
    broadcastTo S256x2048 (rsqrt (addf (divf (shapeCast S256x1 (multiReduction (F := Ideal) .add [1] S256 Y 0x00000000#32 reduces_S256x2048_S256 (.inl rfl) rfl) shapeCasts_S256_S256x1) (broadcast S256x1 (Scalar.ofBits .f32 0x45000000#32))) (broadcast S256x1 (Scalar.ofBits .f32 0x3727C5AC#32))))
        broadcasts_S256x1_S256x2048 (ix2 r k)
      = Ideal.rsqrt (Ideal.div (∑ k' : Fin 2048, Y (ix2 r k')) rowLen + varEps) :=
  (spreadCol _ (fun t => Ideal.rsqrt (Ideal.div t rowLen + varEps)) r k).trans
    (congrArg (fun t => Ideal.rsqrt (Ideal.div t rowLen + varEps)) (laneSum Y r))

/-- A block centred row by row and scaled row by row, at (r, k): the centred entry times the row's scale. -/
theorem centredScaled (X : FVec Ideal S256x2048 .f32) (r : Fin 256) (k : Fin 2048) :
    (X (ix2 r k) - (broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048) (ix2 r k)) *
        (broadcastTo S256x2048 (rsqrt (addf (divf (shapeCast S256x1 (multiReduction (F := Ideal) .add [1] S256 (mulf (subf X (broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048)) (subf X (broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048))) 0x00000000#32 reduces_S256x2048_S256 (.inl rfl) rfl) shapeCasts_S256_S256x1) (broadcast S256x1 (Scalar.ofBits .f32 0x45000000#32))) (broadcast S256x1 (Scalar.ofBits .f32 0x3727C5AC#32))))
          broadcasts_S256x1_S256x2048) (ix2 r k)
      = (X (ix2 r k) - mean (fun j => X (ix2 r j))) * Ideal.rsqrt (variance (fun j => X (ix2 r j)) + varEps) := by
  rw [scaleSpread, meanSpread]
  refine congrArg (fun t => (X (ix2 r k) - mean (fun j => X (ix2 r j))) * Ideal.rsqrt (Ideal.div t rowLen + varEps))
    (Finset.sum_congr rfl fun k' _ => ?_)
  show (X (ix2 r k') - (broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048) (ix2 r k')) * (X (ix2 r k') - (broadcastTo S256x2048 (divf (shapeCast S256x1 (multiReduction (F := Ideal) .add [1] S256 X 0x00000000#32 reduces_S256x2048_S256 (.inl rfl) rfl) shapeCasts_S256_S256x1) (broadcast S256x1 (Scalar.ofBits .f32 0x45000000#32))) broadcasts_S256x1_S256x2048) (ix2 r k')) = _
  rw [meanSpread]

/-- The normalised block (rounded to the narrower format) at (r, k): the normalised row r at k. -/
theorem normedBlock (P0 : Vec Ideal S1x256x2048 .f32) (P1 P2 : Vec Ideal S2048 .f32) (r : Fin 256) (k : Fin 2048) :
    k0_pay6 P0 P1 P2 (ix2 r k) = normed (blockRow P0 r) (vecFn P1) (vecFn P2) k := by
  have hrow : (fun j => shapeCast S256x2048 P0 shapeCasts_S1x256x2048_S256x2048 (ix2 r j)) = blockRow P0 r :=
    funext fun j => dropLead P0 r j
  unfold k0_pay6 k0_pay5
  simp only [truncf_apply, addf_apply, mulf_apply, subf_apply]
  rw [centredScaled (shapeCast S256x2048 P0 shapeCasts_S1x256x2048_S256x2048) r k, hrow, spreadRow P1 shapeCasts_S2048_S1x2048 broadcasts_S1x2048_S256x2048 r k,
    spreadRow P2 shapeCasts_S2048_S1x2048 broadcasts_S1x2048_S256x2048 r k, dropLead P0 r k]
  rfl

/-- A plain product of a block with a [2048, N] matrix into the zero block, plus a bias vector laid out as one row
    and spread over the rows, at (r, c): one projection entry of row r. -/
theorem denseEntry {N : Nat} (D : DotDims S256x2048 ⟨2, ![2048, N]⟩ ⟨2, ![256, N]⟩) (hD : IsPlain D)
    (A : FVec Ideal S256x2048 .bf16) (W : FVec Ideal ⟨2, ![2048, N]⟩ .bf16) (bvec : Vec Ideal ⟨1, ![N]⟩ .f32)
    (hc : (⟨1, ![N]⟩ : Shape).ShapeCasts ⟨2, ![1, N]⟩) (hb : (⟨2, ![1, N]⟩ : Shape).Broadcasts ⟨2, ![256, N]⟩)
    (r : Fin 256) (c : Fin N) :
    addf (matmul D none A W (constant ⟨2, ![256, N]⟩ .f32 0x00000000#32))
        (broadcastTo ⟨2, ![256, N]⟩ (shapeCast ⟨2, ![1, N]⟩ bvec hc) hb) (ix2 r c)
      = proj (fun k => A (ix2 r k)) (fun k => W (ix2 k c)) (vecFn bvec c) := by
  show matmul D none A W _ (ix2 r c) + broadcastTo ⟨2, ![256, N]⟩ (shapeCast ⟨2, ![1, N]⟩ bvec hc) hb (ix2 r c) = _
  rw [spreadRow bvec hc hb r c]
  exact congrArg (· + vecFn bvec c) (matmul_zero_apply hD none A W r c)

theorem plainWide : IsPlain dot_S256x2048_S2048x2048_S256x2048_1_0_0_1_n_n := ⟨rfl, rfl, rfl, rfl, rfl, rfl⟩
theorem plainNarrow : IsPlain dot_S256x2048_S2048x512_S256x512_1_0_0_1_n_n := ⟨rfl, rfl, rfl, rfl, rfl, rfl⟩

/-- The query projection of the block at (r, c). -/
theorem projWide (P0 : Vec Ideal S1x256x2048 .f32) (P1 P2 : Vec Ideal S2048 .f32) (P3 : Vec Ideal S2048x2048 .bf16)
    (P4 : Vec Ideal S2048 .f32) (r : Fin 256) (c : Fin 2048) :
    k0_pay7 P0 P1 P2 P3 P4 (ix2 r c)
      = proj (normed (blockRow P0 r) (vecFn P1) (vecFn P2)) (fun k => P3 (ix2 k c)) (vecFn P4 c) := by
  unfold k0_pay7
  rw [shapeCast_self]
  refine (denseEntry _ plainWide _ _ P4 shapeCasts_S2048_S1x2048 broadcasts_S1x2048_S256x2048 r c).trans ?_
  exact congrArg (fun h => proj h (fun k => P3 (ix2 k c)) (vecFn P4 c)) (funext fun k => normedBlock P0 P1 P2 r k)

/-- The key projection of the block at (r, c). -/
theorem projKey (P0 : Vec Ideal S1x256x2048 .f32) (P1 P2 : Vec Ideal S2048 .f32) (P7 : Vec Ideal S2048x512 .bf16)
    (P8 : Vec Ideal S512 .f32) (r : Fin 256) (c : Fin 512) :
    k0_pay10 (k0_pay8 P0 P1 P2 P7) (k0_pay9 P8) (ix2 r c)
      = proj (normed (blockRow P0 r) (vecFn P1) (vecFn P2)) (fun k => P7 (ix2 k c)) (vecFn P8 c) := by
  unfold k0_pay10 k0_pay8 k0_pay9
  rw [shapeCast_self]
  refine (denseEntry _ plainNarrow _ _ P8 shapeCasts_S512_S1x512 broadcasts_S1x512_S256x512 r c).trans ?_
  exact congrArg (fun h => proj h (fun k => P7 (ix2 k c)) (vecFn P8 c)) (funext fun k => normedBlock P0 P1 P2 r k)

/-- The value projection of the block at (r, c). -/
theorem projVal (P0 : Vec Ideal S1x256x2048 .f32) (P1 P2 : Vec Ideal S2048 .f32) (P9 : Vec Ideal S2048x512 .bf16)
    (P10 : Vec Ideal S512 .f32) (r : Fin 256) (c : Fin 512) :
    k0_pay11 (k0_pay6 P0 P1 P2) P9 P10 (ix2 r c)
      = proj (normed (blockRow P0 r) (vecFn P1) (vecFn P2)) (fun k => P9 (ix2 k c)) (vecFn P10 c) := by
  unfold k0_pay11
  rw [shapeCast_self]
  refine (denseEntry _ plainNarrow _ _ P10 shapeCasts_S512_S1x512 broadcasts_S1x512_S256x512 r c).trans ?_
  exact congrArg (fun h => proj h (fun k => P9 (ix2 k c)) (vecFn P10 c)) (funext fun k => normedBlock P0 P1 P2 r k)

end Cert.LayerHead.Body

end
-- ==== Proof.RopeTile.lean ====
/-
  One head's tile of the rotary embedding, as an array operation and as mathematics.

  A tile holds 256 rows of one head's 64 entries.  The array form multiplies the tile entry by entry by the
  cosine tile, joins the negated upper half of every row (as 0 − x) to its lower half, multiplies that by the
  sine tile, adds the two products, and puts two unit axes in front.  Read at (0, 0, r, d) this is the rotary
  embedding of row r at entry d:  y d · c d + rot y d · s d,  rot y d = −y (d + 32) for d < 32 and y (d − 32)
  otherwise.  The flat position of (u, v, r, d) in a [1, 1, 256, 64] array is r · 64 + d because u = v = 0; a
  joined row reads its first piece below 32 and its second piece, shifted by 32, from 32 on; and 0 − x = −x.
-/
import proofs.«172209_j10256381903693_1_alg».proof.KernelIdeal
import proofs.«172209_j10256381903693_1_alg».proof.Proof.Gen.KernelIdeal
import proofs.«172209_j10256381903693_1_alg».proof.Proof.Spec
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.LayerHead.Body

open Cert.KernelIdeal Cert.KernelIdeal.Gen Idealize.ShloMosaic Idealize.ShloMosaic.ValueIdx

/-- One head's tile as the body builds it: the head times the cosines plus the rotated head (second half negated as 0 − x and moved to the front, first half moved to the back) times the sines, with two unit axes put in front. -/
def ropeTile (sl c s : FVec Ideal S256x64 .f32) : FVec Ideal S1x1x256x64 .f32 :=
  shapeCast S1x1x256x64 (addf (mulf sl c) (mulf (concatenate S256x64 1 [⟨S256x32, subf (broadcast S256x32 (Scalar.ofBits .f32 0x00000000#32)) (extractStridedSlice S256x32 ![0, 32] sl slices_S256x64_o0_32_S256x32)⟩, ⟨S256x32, extractStridedSlice S256x32 ![0, 0] sl slices_S256x64_o0_0_S256x32⟩] concatenates_S256x32_S256x32_S256x64_d1) s)) shapeCasts_S256x64_S1x1x256x64

/-- The tile at (u, v, r, d) is the rotary embedding of row r at entry d. -/
theorem ropeTile_apply (sl c s : FVec Ideal S256x64 .f32) (u v : Fin 1) (r : Fin 256) (d : Fin 64) :
    ropeTile sl c s (ix4 u v r d) = Cert.LayerHead.rope (fun e => sl (ix2 r e)) (fun e => c (ix2 r e)) (fun e => s (ix2 r e)) d := by
  unfold ropeTile
  refine (shapeCast_apply _ _ (ix4 u v r d) (ix2 r d) ?_).trans ?_
  · rw [Shape.rowMajor_val_two, Shape.rowMajor_val_four]
    have hu := u.isLt
    have hv := v.isLt
    show r.val * 64 + d.val = ((u.val * 1 + v.val) * 256 + r.val) * 64 + d.val
    omega
  · rw [addf_apply, mulf_apply, mulf_apply]
    unfold Cert.LayerHead.rope Cert.LayerHead.rot
    by_cases h : d.val < 32
    · rw [dif_pos h]
      refine congrArg (fun z => sl (ix2 r d) * c (ix2 r d) + z * s (ix2 r d)) ?_
      refine (concatenate_pair_apply_left (t := S256x64) (s₁ := S256x32) (s₂ := S256x32) _ _ _ _ (ix2 r d) rfl
        (ix2 r (⟨d.val, h⟩ : Fin 32)) (fun a => by match a with | ⟨0, _⟩ => rfl | ⟨1, _⟩ => rfl)).trans ?_
      rw [subf_apply, broadcast_apply,
        slice2_axis1_apply 32 sl _ r (⟨d.val, h⟩ : Fin 32) (⟨d.val + 32, by omega⟩ : Fin 64)
          (by show d.val + 32 = 32 + d.val; omega)]
      show Ideal.ofBits .f32 0x00000000#32 - _ = _
      rw [Ideal.ofBits_zero_f32, zero_sub]
    · rw [dif_neg h]
      refine congrArg (fun z => sl (ix2 r d) * c (ix2 r d) + z * s (ix2 r d)) ?_
      refine (concatenate_pair_apply_right (t := S256x64) (s₁ := S256x32) (s₂ := S256x32) _ _ _ _ (ix2 r d) rfl rfl
        (ix2 r (⟨d.val - 32, by have := d.isLt; omega⟩ : Fin 32))
        (fun a ha => by
          match a with
          | ⟨0, _⟩ => rfl
          | ⟨1, _⟩ => exact absurd rfl ha)
        (by show d.val - 32 + 32 = d.val; omega)).trans ?_
      exact slice2_axis1_apply 0 sl _ r (⟨d.val - 32, by have := d.isLt; omega⟩ : Fin 32)
        (⟨d.val - 32, by have := d.isLt; omega⟩ : Fin 64) (by show d.val - 32 = 0 + (d.val - 32); omega)

end Cert.LayerHead.Body

end
-- ==== Proof.Pieces.lean ====
/-
  What the per-head stores leave in an output block.

  The body cuts a projected block [256, n · 64] into n heads of 64 columns, rotates each head with the block's
  cosines and sines, and stores head hh as the [1, 1, 256, 64] tile at position (0, hh, 0, 0) of the
  [1, n, 256, 64] output block.  The tiles are disjoint and fill the block, so the block after the body is, at
  (0, hh, r, d), the rotary embedding of columns hh · 64 … hh · 64 + 63 of row r, read at d.
-/
import proofs.«172209_j10256381903693_1_alg».proof.Proof.Gen.KernelIdeal.Frame
import proofs.«172209_j10256381903693_1_alg».proof.Proof.Spec
import proofs.«172209_j10256381903693_1_alg».proof.Proof.RopeTile
import Idealize.ShloMosaic.Lib.Pipeline.Value
import Idealize.ShloMosaic.Lib.ValueLayout
import Idealize.ShloMosaic.Lib.ValueIdx

noncomputable section

namespace Cert.LayerHead.Body

open Cert.KernelIdeal Cert.KernelIdeal.Gen Cert.LayerHead
open Idealize.ShloMosaic Idealize.ShloMosaic.ValueIdx

/-- The block of n rotated heads of a projected block Y, with cosines C and sines S. -/
def headTiles {n N : Nat} (hN : n * 64 = N) (Y : FVec Ideal ⟨2, ![256, N]⟩ .f32) (C S : FVec Ideal S256x64 .f32) :
    Vec Ideal ⟨4, ![1, n, 256, 64]⟩ .f32 := fun y =>
  rope (fun e => Y (ix2 (y 2) (headCol hN (y 1) e))) (fun e => C (ix2 (y 2) e)) (fun e => S (ix2 (y 2) e)) (y 3)

/-- One head's tile, read at an index of the tile, is the block of rotated heads at the index under it. -/
theorem tilePiece {n N : Nat} (hN : n * 64 = N) (Y : FVec Ideal ⟨2, ![256, N]⟩ .f32) (C S : FVec Ideal S256x64 .f32)
    (hh : Fin n) (o : Nat) (ho : o = hh.val * 64) (hsl : (⟨2, ![256, N]⟩ : Shape).Slices ![0, o] S256x64)
    (x : S1x1x256x64.Idx) (j : (⟨4, ![1, n, 256, 64]⟩ : Shape).Idx) (hj : j = ix4 (0 : Fin 1) hh (x 2) (x 3)) :
    ropeTile (extractStridedSlice S256x64 ![0, o] Y hsl) C S x = headTiles hN Y C S j := by
  subst hj
  obtain ⟨u, v, r, d, rfl⟩ : ∃ (u v : Fin 1) (r : Fin 256) (d : Fin 64), x = ix4 u v r d := ⟨x 0, x 1, x 2, x 3, eq_ix4 x⟩
  rw [ropeTile_apply]
  show rope _ _ _ d = rope _ _ _ d
  congr 1
  funext e
  exact slice2_axis1_apply o Y hsl r e (headCol hN hh e) (by rw [headCol_val, ho])

/-- The tile at position (0, hh, 0, 0) of a block of n heads sends its index (u, v, r, d) to (0, hh, r, d). -/
theorem unitIdx {n : Nat} (hh : Nat) (hlt : hh < n)
    (inb : ∀ a, (![0, hh, 0, 0] : Fin 4 → Nat) a + S1x1x256x64.size a ≤ (⟨4, ![1, n, 256, 64]⟩ : Shape).size a)
    (x : S1x1x256x64.Idx) :
    (Rect.unit (s := ⟨4, ![1, n, 256, 64]⟩) ![0, hh, 0, 0] S1x1x256x64.size inb).idx x = ix4 (0 : Fin 1) ⟨hh, hlt⟩ (x 2) (x 3) := by
  have hx0 : (x 0).val < 1 := (x 0).isLt
  have hx1 : (x 1).val < 1 := (x 1).isLt
  funext a
  apply Fin.ext
  match a with
  | ⟨0, _⟩ => show 0 + 1 * (x 0).val = 0; omega
  | ⟨1, _⟩ => show hh + 1 * (x 1).val = hh; omega
  | ⟨2, _⟩ => show 0 + 1 * (x 2).val = (x 2).val; omega
  | ⟨3, _⟩ => show 0 + 1 * (x 3).val = (x 3).val; omega

/-- The 32 query tiles fill the query block with the rotated heads of the query projection. -/
theorem queryBlock (Q : FVec Ideal S256x2048 .f32) (Lc Ls : Vec Ideal S1x256x64 .f32) (y : S1x32x256x64.Idx) :
    View.canon [⟨r0_37, k0_pay63 Q (k0_pay12 Lc) (k0_pay13 Ls)⟩,
      ⟨r0_36, k0_pay62 Q (k0_pay12 Lc) (k0_pay13 Ls)⟩,
      ⟨r0_35, k0_pay61 Q (k0_pay12 Lc) (k0_pay13 Ls)⟩,
      ⟨r0_34, k0_pay60 (k0_pay59 Q (k0_pay12 Lc) (k0_pay13 Ls))⟩,
      ⟨r0_33, k0_pay58 Q (k0_pay12 Lc) (k0_pay13 Ls)⟩,
      ⟨r0_32, k0_pay57 Q (k0_pay12 Lc) (k0_pay13 Ls)⟩,
      ⟨r0_31, k0_pay56 (k0_pay13 Ls) (k0_pay54 Q) (k0_pay55 Q (k0_pay12 Lc))⟩,
      ⟨r0_30, k0_pay52 Q (k0_pay12 Lc) (k0_pay13 Ls)⟩,
      ⟨r0_29, k0_pay51 Q (k0_pay12 Lc) (k0_pay13 Ls)⟩,
      ⟨r0_28, k0_pay50 (k0_pay12 Lc) (k0_pay13 Ls) (k0_pay48 Q) (k0_pay49 Q)⟩,
      ⟨r0_27, k0_pay47 Q (k0_pay12 Lc) (k0_pay13 Ls)⟩,
      ⟨r0_26, k0_pay46 Q (k0_pay12 Lc) (k0_pay13 Ls)⟩,
      ⟨r0_25, k0_pay45 Q (k0_pay12 Lc) (k0_pay13 Ls)⟩,
      ⟨r0_24, k0_pay44 (k0_pay43 Q (k0_pay12 Lc) (k0_pay13 Ls))⟩,
      ⟨r0_23, k0_pay42 Q (k0_pay12 Lc) (k0_pay13 Ls)⟩,
      ⟨r0_22, k0_pay41 Q (k0_pay12 Lc) (k0_pay13 Ls)⟩,
      ⟨r0_21, k0_pay40 (k0_pay13 Ls) (k0_pay38 Q) (k0_pay39 Q (k0_pay12 Lc))⟩,
      ⟨r0_20, k0_pay36 Q (k0_pay12 Lc) (k0_pay13 Ls)⟩,
      ⟨r0_19, k0_pay35 Q (k0_pay12 Lc) (k0_pay13 Ls)⟩,
      ⟨r0_18, k0_pay34 (k0_pay12 Lc) (k0_pay13 Ls) (k0_pay32 Q) (k0_pay33 Q)⟩,
      ⟨r0_17, k0_pay31 Q (k0_pay12 Lc) (k0_pay13 Ls)⟩,
      ⟨r0_16, k0_pay30 Q (k0_pay12 Lc) (k0_pay13 Ls)⟩,
      ⟨r0_15, k0_pay29 Q (k0_pay12 Lc) (k0_pay13 Ls)⟩,
      ⟨r0_14, k0_pay28 (k0_pay27 Q (k0_pay12 Lc) (k0_pay13 Ls))⟩,
      ⟨r0_13, k0_pay26 Q (k0_pay12 Lc) (k0_pay13 Ls)⟩,
      ⟨r0_12, k0_pay25 Q (k0_pay12 Lc) (k0_pay13 Ls)⟩,
      ⟨r0_11, k0_pay24 (k0_pay13 Ls) (k0_pay22 Q) (k0_pay23 Q (k0_pay12 Lc))⟩,
      ⟨r0_10, k0_pay20 Q (k0_pay12 Lc) (k0_pay13 Ls)⟩,
      ⟨r0_9, k0_pay19 Q (k0_pay12 Lc) (k0_pay13 Ls)⟩,
      ⟨r0_8, k0_pay18 (k0_pay12 Lc) (k0_pay13 Ls) (k0_pay16 Q) (k0_pay17 Q)⟩,
      ⟨r0_7, k0_pay15 Q Lc Ls⟩,
      ⟨r0_6, k0_pay14 Q Lc Ls⟩] y
      = headTiles (by decide : 32 * 64 = 2048) Q (k0_pay12 Lc) (k0_pay13 Ls) y := by
  refine View.canon_apply_of_pieces (headTiles (by decide : 32 * 64 = 2048) Q (k0_pay12 Lc) (k0_pay13 Ls)) _ ?_ y
    (cover0_12 _ _ _ _ _ _ _ _ _ _ _ _ _ _ _ _ _ _ _ _ _ _ _ _ _ _ _ _ _ _ _ _ y)
  intro pc hpc
  rcases List.mem_cons.mp hpc with rfl | hpc  -- head 31
  · exact fun x => (congrFun (show k0_pay63 Q (k0_pay12 Lc) (k0_pay13 Ls) = ropeTile (extractStridedSlice S256x64 ![0, 1984] Q slices_S256x2048_o0_1984_S256x64) (k0_pay12 Lc) (k0_pay13 Ls) from rfl) x).trans
      (tilePiece (by decide : 32 * 64 = 2048) Q (k0_pay12 Lc) (k0_pay13 Ls) ⟨31, by decide⟩ 1984 rfl slices_S256x2048_o0_1984_S256x64 x _
        (unitIdx 31 (by decide) inb_S1x32x256x64_S1x1x256x64_0_31_0_0 x))
  rcases List.mem_cons.mp hpc with rfl | hpc  -- head 30
  · exact fun x => (congrFun (show k0_pay62 Q (k0_pay12 Lc) (k0_pay13 Ls) = ropeTile (extractStridedSlice S256x64 ![0, 1920] Q slices_S256x2048_o0_1920_S256x64) (k0_pay12 Lc) (k0_pay13 Ls) from rfl) x).trans
      (tilePiece (by decide : 32 * 64 = 2048) Q (k0_pay12 Lc) (k0_pay13 Ls) ⟨30, by decide⟩ 1920 rfl slices_S256x2048_o0_1920_S256x64 x _
        (unitIdx 30 (by decide) inb_S1x32x256x64_S1x1x256x64_0_30_0_0 x))
  rcases List.mem_cons.mp hpc with rfl | hpc  -- head 29
  · exact fun x => (congrFun (show k0_pay61 Q (k0_pay12 Lc) (k0_pay13 Ls) = ropeTile (extractStridedSlice S256x64 ![0, 1856] Q slices_S256x2048_o0_1856_S256x64) (k0_pay12 Lc) (k0_pay13 Ls) from rfl) x).trans
      (tilePiece (by decide : 32 * 64 = 2048) Q (k0_pay12 Lc) (k0_pay13 Ls) ⟨29, by decide⟩ 1856 rfl slices_S256x2048_o0_1856_S256x64 x _
        (unitIdx 29 (by decide) inb_S1x32x256x64_S1x1x256x64_0_29_0_0 x))
  rcases List.mem_cons.mp hpc with rfl | hpc  -- head 28
  · exact fun x => (congrFun (show k0_pay60 (k0_pay59 Q (k0_pay12 Lc) (k0_pay13 Ls)) = ropeTile (extractStridedSlice S256x64 ![0, 1792] Q slices_S256x2048_o0_1792_S256x64) (k0_pay12 Lc) (k0_pay13 Ls) from rfl) x).trans
      (tilePiece (by decide : 32 * 64 = 2048) Q (k0_pay12 Lc) (k0_pay13 Ls) ⟨28, by decide⟩ 1792 rfl slices_S256x2048_o0_1792_S256x64 x _
        (unitIdx 28 (by decide) inb_S1x32x256x64_S1x1x256x64_0_28_0_0 x))
  rcases List.mem_cons.mp hpc with rfl | hpc  -- head 27
  · exact fun x => (congrFun (show k0_pay58 Q (k0_pay12 Lc) (k0_pay13 Ls) = ropeTile (extractStridedSlice S256x64 ![0, 1728] Q slices_S256x2048_o0_1728_S256x64) (k0_pay12 Lc) (k0_pay13 Ls) from rfl) x).trans
      (tilePiece (by decide : 32 * 64 = 2048) Q (k0_pay12 Lc) (k0_pay13 Ls) ⟨27, by decide⟩ 1728 rfl slices_S256x2048_o0_1728_S256x64 x _
        (unitIdx 27 (by decide) inb_S1x32x256x64_S1x1x256x64_0_27_0_0 x))
  rcases List.mem_cons.mp hpc with rfl | hpc  -- head 26
  · exact fun x => (congrFun (show k0_pay57 Q (k0_pay12 Lc) (k0_pay13 Ls) = ropeTile (extractStridedSlice S256x64 ![0, 1664] Q slices_S256x2048_o0_1664_S256x64) (k0_pay12 Lc) (k0_pay13 Ls) from rfl) x).trans
      (tilePiece (by decide : 32 * 64 = 2048) Q (k0_pay12 Lc) (k0_pay13 Ls) ⟨26, by decide⟩ 1664 rfl slices_S256x2048_o0_1664_S256x64 x _
        (unitIdx 26 (by decide) inb_S1x32x256x64_S1x1x256x64_0_26_0_0 x))
  rcases List.mem_cons.mp hpc with rfl | hpc  -- head 25
  · exact fun x => (congrFun (show k0_pay56 (k0_pay13 Ls) (k0_pay54 Q) (k0_pay55 Q (k0_pay12 Lc)) = ropeTile (extractStridedSlice S256x64 ![0, 1600] Q slices_S256x2048_o0_1600_S256x64) (k0_pay12 Lc) (k0_pay13 Ls) from rfl) x).trans
      (tilePiece (by decide : 32 * 64 = 2048) Q (k0_pay12 Lc) (k0_pay13 Ls) ⟨25, by decide⟩ 1600 rfl slices_S256x2048_o0_1600_S256x64 x _
        (unitIdx 25 (by decide) inb_S1x32x256x64_S1x1x256x64_0_25_0_0 x))
  rcases List.mem_cons.mp hpc with rfl | hpc  -- head 24
  · exact fun x => (congrFun (show k0_pay52 Q (k0_pay12 Lc) (k0_pay13 Ls) = ropeTile (extractStridedSlice S256x64 ![0, 1536] Q slices_S256x2048_o0_1536_S256x64) (k0_pay12 Lc) (k0_pay13 Ls) from rfl) x).trans
      (tilePiece (by decide : 32 * 64 = 2048) Q (k0_pay12 Lc) (k0_pay13 Ls) ⟨24, by decide⟩ 1536 rfl slices_S256x2048_o0_1536_S256x64 x _
        (unitIdx 24 (by decide) inb_S1x32x256x64_S1x1x256x64_0_24_0_0 x))
  rcases List.mem_cons.mp hpc with rfl | hpc  -- head 23
  · exact fun x => (congrFun (show k0_pay51 Q (k0_pay12 Lc) (k0_pay13 Ls) = ropeTile (extractStridedSlice S256x64 ![0, 1472] Q slices_S256x2048_o0_1472_S256x64) (k0_pay12 Lc) (k0_pay13 Ls) from rfl) x).trans
      (tilePiece (by decide : 32 * 64 = 2048) Q (k0_pay12 Lc) (k0_pay13 Ls) ⟨23, by decide⟩ 1472 rfl slices_S256x2048_o0_1472_S256x64 x _
        (unitIdx 23 (by decide) inb_S1x32x256x64_S1x1x256x64_0_23_0_0 x))
  rcases List.mem_cons.mp hpc with rfl | hpc  -- head 22
  · exact fun x => (congrFun (show k0_pay50 (k0_pay12 Lc) (k0_pay13 Ls) (k0_pay48 Q) (k0_pay49 Q) = ropeTile (extractStridedSlice S256x64 ![0, 1408] Q slices_S256x2048_o0_1408_S256x64) (k0_pay12 Lc) (k0_pay13 Ls) from rfl) x).trans
      (tilePiece (by decide : 32 * 64 = 2048) Q (k0_pay12 Lc) (k0_pay13 Ls) ⟨22, by decide⟩ 1408 rfl slices_S256x2048_o0_1408_S256x64 x _
        (unitIdx 22 (by decide) inb_S1x32x256x64_S1x1x256x64_0_22_0_0 x))
  rcases List.mem_cons.mp hpc with rfl | hpc  -- head 21
  · exact fun x => (congrFun (show k0_pay47 Q (k0_pay12 Lc) (k0_pay13 Ls) = ropeTile (extractStridedSlice S256x64 ![0, 1344] Q slices_S256x2048_o0_1344_S256x64) (k0_pay12 Lc) (k0_pay13 Ls) from rfl) x).trans
      (tilePiece (by decide : 32 * 64 = 2048) Q (k0_pay12 Lc) (k0_pay13 Ls) ⟨21, by decide⟩ 1344 rfl slices_S256x2048_o0_1344_S256x64 x _
        (unitIdx 21 (by decide) inb_S1x32x256x64_S1x1x256x64_0_21_0_0 x))
  rcases List.mem_cons.mp hpc with rfl | hpc  -- head 20
  · exact fun x => (congrFun (show k0_pay46 Q (k0_pay12 Lc) (k0_pay13 Ls) = ropeTile (extractStridedSlice S256x64 ![0, 1280] Q slices_S256x2048_o0_1280_S256x64) (k0_pay12 Lc) (k0_pay13 Ls) from rfl) x).trans
      (tilePiece (by decide : 32 * 64 = 2048) Q (k0_pay12 Lc) (k0_pay13 Ls) ⟨20, by decide⟩ 1280 rfl slices_S256x2048_o0_1280_S256x64 x _
        (unitIdx 20 (by decide) inb_S1x32x256x64_S1x1x256x64_0_20_0_0 x))
  rcases List.mem_cons.mp hpc with rfl | hpc  -- head 19
  · exact fun x => (congrFun (show k0_pay45 Q (k0_pay12 Lc) (k0_pay13 Ls) = ropeTile (extractStridedSlice S256x64 ![0, 1216] Q slices_S256x2048_o0_1216_S256x64) (k0_pay12 Lc) (k0_pay13 Ls) from rfl) x).trans
      (tilePiece (by decide : 32 * 64 = 2048) Q (k0_pay12 Lc) (k0_pay13 Ls) ⟨19, by decide⟩ 1216 rfl slices_S256x2048_o0_1216_S256x64 x _
        (unitIdx 19 (by decide) inb_S1x32x256x64_S1x1x256x64_0_19_0_0 x))
  rcases List.mem_cons.mp hpc with rfl | hpc  -- head 18
  · exact fun x => (congrFun (show k0_pay44 (k0_pay43 Q (k0_pay12 Lc) (k0_pay13 Ls)) = ropeTile (extractStridedSlice S256x64 ![0, 1152] Q slices_S256x2048_o0_1152_S256x64) (k0_pay12 Lc) (k0_pay13 Ls) from rfl) x).trans
      (tilePiece (by decide : 32 * 64 = 2048) Q (k0_pay12 Lc) (k0_pay13 Ls) ⟨18, by decide⟩ 1152 rfl slices_S256x2048_o0_1152_S256x64 x _
        (unitIdx 18 (by decide) inb_S1x32x256x64_S1x1x256x64_0_18_0_0 x))
  rcases List.mem_cons.mp hpc with rfl | hpc  -- head 17
  · exact fun x => (congrFun (show k0_pay42 Q (k0_pay12 Lc) (k0_pay13 Ls) = ropeTile (extractStridedSlice S256x64 ![0, 1088] Q slices_S256x2048_o0_1088_S256x64) (k0_pay12 Lc) (k0_pay13 Ls) from rfl) x).trans
      (tilePiece (by decide : 32 * 64 = 2048) Q (k0_pay12 Lc) (k0_pay13 Ls) ⟨17, by decide⟩ 1088 rfl slices_S256x2048_o0_1088_S256x64 x _
        (unitIdx 17 (by decide) inb_S1x32x256x64_S1x1x256x64_0_17_0_0 x))
  rcases List.mem_cons.mp hpc with rfl | hpc  -- head 16
  · exact fun x => (congrFun (show k0_pay41 Q (k0_pay12 Lc) (k0_pay13 Ls) = ropeTile (extractStridedSlice S256x64 ![0, 1024] Q slices_S256x2048_o0_1024_S256x64) (k0_pay12 Lc) (k0_pay13 Ls) from rfl) x).trans
      (tilePiece (by decide : 32 * 64 = 2048) Q (k0_pay12 Lc) (k0_pay13 Ls) ⟨16, by decide⟩ 1024 rfl slices_S256x2048_o0_1024_S256x64 x _
        (unitIdx 16 (by decide) inb_S1x32x256x64_S1x1x256x64_0_16_0_0 x))
  rcases List.mem_cons.mp hpc with rfl | hpc  -- head 15
  · exact fun x => (congrFun (show k0_pay40 (k0_pay13 Ls) (k0_pay38 Q) (k0_pay39 Q (k0_pay12 Lc)) = ropeTile (extractStridedSlice S256x64 ![0, 960] Q slices_S256x2048_o0_960_S256x64) (k0_pay12 Lc) (k0_pay13 Ls) from rfl) x).trans
      (tilePiece (by decide : 32 * 64 = 2048) Q (k0_pay12 Lc) (k0_pay13 Ls) ⟨15, by decide⟩ 960 rfl slices_S256x2048_o0_960_S256x64 x _
        (unitIdx 15 (by decide) inb_S1x32x256x64_S1x1x256x64_0_15_0_0 x))
  rcases List.mem_cons.mp hpc with rfl | hpc  -- head 14
  · exact fun x => (congrFun (show k0_pay36 Q (k0_pay12 Lc) (k0_pay13 Ls) = ropeTile (extractStridedSlice S256x64 ![0, 896] Q slices_S256x2048_o0_896_S256x64) (k0_pay12 Lc) (k0_pay13 Ls) from rfl) x).trans
      (tilePiece (by decide : 32 * 64 = 2048) Q (k0_pay12 Lc) (k0_pay13 Ls) ⟨14, by decide⟩ 896 rfl slices_S256x2048_o0_896_S256x64 x _
        (unitIdx 14 (by decide) inb_S1x32x256x64_S1x1x256x64_0_14_0_0 x))
  rcases List.mem_cons.mp hpc with rfl | hpc  -- head 13
  · exact fun x => (congrFun (show k0_pay35 Q (k0_pay12 Lc) (k0_pay13 Ls) = ropeTile (extractStridedSlice S256x64 ![0, 832] Q slices_S256x2048_o0_832_S256x64) (k0_pay12 Lc) (k0_pay13 Ls) from rfl) x).trans
      (tilePiece (by decide : 32 * 64 = 2048) Q (k0_pay12 Lc) (k0_pay13 Ls) ⟨13, by decide⟩ 832 rfl slices_S256x2048_o0_832_S256x64 x _
        (unitIdx 13 (by decide) inb_S1x32x256x64_S1x1x256x64_0_13_0_0 x))
  rcases List.mem_cons.mp hpc with rfl | hpc  -- head 12
  · exact fun x => (congrFun (show k0_pay34 (k0_pay12 Lc) (k0_pay13 Ls) (k0_pay32 Q) (k0_pay33 Q) = ropeTile (extractStridedSlice S256x64 ![0, 768] Q slices_S256x2048_o0_768_S256x64) (k0_pay12 Lc) (k0_pay13 Ls) from rfl) x).trans
      (tilePiece (by decide : 32 * 64 = 2048) Q (k0_pay12 Lc) (k0_pay13 Ls) ⟨12, by decide⟩ 768 rfl slices_S256x2048_o0_768_S256x64 x _
        (unitIdx 12 (by decide) inb_S1x32x256x64_S1x1x256x64_0_12_0_0 x))
  rcases List.mem_cons.mp hpc with rfl | hpc  -- head 11
  · exact fun x => (congrFun (show k0_pay31 Q (k0_pay12 Lc) (k0_pay13 Ls) = ropeTile (extractStridedSlice S256x64 ![0, 704] Q slices_S256x2048_o0_704_S256x64) (k0_pay12 Lc) (k0_pay13 Ls) from rfl) x).trans
      (tilePiece (by decide : 32 * 64 = 2048) Q (k0_pay12 Lc) (k0_pay13 Ls) ⟨11, by decide⟩ 704 rfl slices_S256x2048_o0_704_S256x64 x _
        (unitIdx 11 (by decide) inb_S1x32x256x64_S1x1x256x64_0_11_0_0 x))
  rcases List.mem_cons.mp hpc with rfl | hpc  -- head 10
  · exact fun x => (congrFun (show k0_pay30 Q (k0_pay12 Lc) (k0_pay13 Ls) = ropeTile (extractStridedSlice S256x64 ![0, 640] Q slices_S256x2048_o0_640_S256x64) (k0_pay12 Lc) (k0_pay13 Ls) from rfl) x).trans
      (tilePiece (by decide : 32 * 64 = 2048) Q (k0_pay12 Lc) (k0_pay13 Ls) ⟨10, by decide⟩ 640 rfl slices_S256x2048_o0_640_S256x64 x _
        (unitIdx 10 (by decide) inb_S1x32x256x64_S1x1x256x64_0_10_0_0 x))
  rcases List.mem_cons.mp hpc with rfl | hpc  -- head 9
  · exact fun x => (congrFun (show k0_pay29 Q (k0_pay12 Lc) (k0_pay13 Ls) = ropeTile (extractStridedSlice S256x64 ![0, 576] Q slices_S256x2048_o0_576_S256x64) (k0_pay12 Lc) (k0_pay13 Ls) from rfl) x).trans
      (tilePiece (by decide : 32 * 64 = 2048) Q (k0_pay12 Lc) (k0_pay13 Ls) ⟨9, by decide⟩ 576 rfl slices_S256x2048_o0_576_S256x64 x _
        (unitIdx 9 (by decide) inb_S1x32x256x64_S1x1x256x64_0_9_0_0 x))
  rcases List.mem_cons.mp hpc with rfl | hpc  -- head 8
  · exact fun x => (congrFun (show k0_pay28 (k0_pay27 Q (k0_pay12 Lc) (k0_pay13 Ls)) = ropeTile (extractStridedSlice S256x64 ![0, 512] Q slices_S256x2048_o0_512_S256x64) (k0_pay12 Lc) (k0_pay13 Ls) from rfl) x).trans
      (tilePiece (by decide : 32 * 64 = 2048) Q (k0_pay12 Lc) (k0_pay13 Ls) ⟨8, by decide⟩ 512 rfl slices_S256x2048_o0_512_S256x64 x _
        (unitIdx 8 (by decide) inb_S1x32x256x64_S1x1x256x64_0_8_0_0 x))
  rcases List.mem_cons.mp hpc with rfl | hpc  -- head 7
  · exact fun x => (congrFun (show k0_pay26 Q (k0_pay12 Lc) (k0_pay13 Ls) = ropeTile (extractStridedSlice S256x64 ![0, 448] Q slices_S256x2048_o0_448_S256x64) (k0_pay12 Lc) (k0_pay13 Ls) from rfl) x).trans
      (tilePiece (by decide : 32 * 64 = 2048) Q (k0_pay12 Lc) (k0_pay13 Ls) ⟨7, by decide⟩ 448 rfl slices_S256x2048_o0_448_S256x64 x _
        (unitIdx 7 (by decide) inb_S1x32x256x64_S1x1x256x64_0_7_0_0 x))
  rcases List.mem_cons.mp hpc with rfl | hpc  -- head 6
  · exact fun x => (congrFun (show k0_pay25 Q (k0_pay12 Lc) (k0_pay13 Ls) = ropeTile (extractStridedSlice S256x64 ![0, 384] Q slices_S256x2048_o0_384_S256x64) (k0_pay12 Lc) (k0_pay13 Ls) from rfl) x).trans
      (tilePiece (by decide : 32 * 64 = 2048) Q (k0_pay12 Lc) (k0_pay13 Ls) ⟨6, by decide⟩ 384 rfl slices_S256x2048_o0_384_S256x64 x _
        (unitIdx 6 (by decide) inb_S1x32x256x64_S1x1x256x64_0_6_0_0 x))
  rcases List.mem_cons.mp hpc with rfl | hpc  -- head 5
  · exact fun x => (congrFun (show k0_pay24 (k0_pay13 Ls) (k0_pay22 Q) (k0_pay23 Q (k0_pay12 Lc)) = ropeTile (extractStridedSlice S256x64 ![0, 320] Q slices_S256x2048_o0_320_S256x64) (k0_pay12 Lc) (k0_pay13 Ls) from rfl) x).trans
      (tilePiece (by decide : 32 * 64 = 2048) Q (k0_pay12 Lc) (k0_pay13 Ls) ⟨5, by decide⟩ 320 rfl slices_S256x2048_o0_320_S256x64 x _
        (unitIdx 5 (by decide) inb_S1x32x256x64_S1x1x256x64_0_5_0_0 x))
  rcases List.mem_cons.mp hpc with rfl | hpc  -- head 4
  · exact fun x => (congrFun (show k0_pay20 Q (k0_pay12 Lc) (k0_pay13 Ls) = ropeTile (extractStridedSlice S256x64 ![0, 256] Q slices_S256x2048_o0_256_S256x64) (k0_pay12 Lc) (k0_pay13 Ls) from rfl) x).trans
      (tilePiece (by decide : 32 * 64 = 2048) Q (k0_pay12 Lc) (k0_pay13 Ls) ⟨4, by decide⟩ 256 rfl slices_S256x2048_o0_256_S256x64 x _
        (unitIdx 4 (by decide) inb_S1x32x256x64_S1x1x256x64_0_4_0_0 x))
  rcases List.mem_cons.mp hpc with rfl | hpc  -- head 3
  · exact fun x => (congrFun (show k0_pay19 Q (k0_pay12 Lc) (k0_pay13 Ls) = ropeTile (extractStridedSlice S256x64 ![0, 192] Q slices_S256x2048_o0_192_S256x64) (k0_pay12 Lc) (k0_pay13 Ls) from rfl) x).trans
      (tilePiece (by decide : 32 * 64 = 2048) Q (k0_pay12 Lc) (k0_pay13 Ls) ⟨3, by decide⟩ 192 rfl slices_S256x2048_o0_192_S256x64 x _
        (unitIdx 3 (by decide) inb_S1x32x256x64_S1x1x256x64_0_3_0_0 x))
  rcases List.mem_cons.mp hpc with rfl | hpc  -- head 2
  · exact fun x => (congrFun (show k0_pay18 (k0_pay12 Lc) (k0_pay13 Ls) (k0_pay16 Q) (k0_pay17 Q) = ropeTile (extractStridedSlice S256x64 ![0, 128] Q slices_S256x2048_o0_128_S256x64) (k0_pay12 Lc) (k0_pay13 Ls) from rfl) x).trans
      (tilePiece (by decide : 32 * 64 = 2048) Q (k0_pay12 Lc) (k0_pay13 Ls) ⟨2, by decide⟩ 128 rfl slices_S256x2048_o0_128_S256x64 x _
        (unitIdx 2 (by decide) inb_S1x32x256x64_S1x1x256x64_0_2_0_0 x))
  rcases List.mem_cons.mp hpc with rfl | hpc  -- head 1
  · exact fun x => (congrFun (show k0_pay15 Q Lc Ls = ropeTile (extractStridedSlice S256x64 ![0, 64] Q slices_S256x2048_o0_64_S256x64) (k0_pay12 Lc) (k0_pay13 Ls) from rfl) x).trans
      (tilePiece (by decide : 32 * 64 = 2048) Q (k0_pay12 Lc) (k0_pay13 Ls) ⟨1, by decide⟩ 64 rfl slices_S256x2048_o0_64_S256x64 x _
        (unitIdx 1 (by decide) inb_S1x32x256x64_S1x1x256x64_0_1_0_0 x))
  rcases List.mem_cons.mp hpc with rfl | hpc  -- head 0
  · exact fun x => (congrFun (show k0_pay14 Q Lc Ls = ropeTile (extractStridedSlice S256x64 ![0, 0] Q slices_S256x2048_o0_0_S256x64) (k0_pay12 Lc) (k0_pay13 Ls) from rfl) x).trans
      (tilePiece (by decide : 32 * 64 = 2048) Q (k0_pay12 Lc) (k0_pay13 Ls) ⟨0, by decide⟩ 0 rfl slices_S256x2048_o0_0_S256x64 x _
        (unitIdx 0 (by decide) inb_S1x32x256x64_S1x1x256x64_0_0_0_0 x))
  nomatch hpc

/-- The 8 key tiles fill the key block with the rotated heads of the key projection. -/
theorem keyBlock (Q : FVec Ideal S256x512 .f32) (Lc Ls : Vec Ideal S1x256x64 .f32) (y : S1x8x256x64.Idx) :
    View.canon [⟨r0_45, k0_pay2 Q (k0_pay12 Lc) (k0_pay13 Ls)⟩,
      ⟨r0_44, k0_pay82 Q (k0_pay12 Lc) (k0_pay13 Ls)⟩,
      ⟨r0_43, k0_pay80 Q (k0_pay12 Lc) (k0_pay13 Ls)⟩,
      ⟨r0_42, k0_pay78 (k0_pay77 Q (k0_pay12 Lc) (k0_pay13 Ls))⟩,
      ⟨r0_41, k0_pay75 Q (k0_pay12 Lc) (k0_pay13 Ls)⟩,
      ⟨r0_40, k0_pay73 (k0_pay13 Ls) (k0_pay71 Q) (k0_pay72 Q (k0_pay12 Lc))⟩,
      ⟨r0_39, k0_pay68 Q (k0_pay12 Lc) (k0_pay13 Ls)⟩,
      ⟨r0_38, k0_pay66 (k0_pay12 Lc) (k0_pay13 Ls) (k0_pay64 Q) (k0_pay65 Q)⟩] y
      = headTiles (by decide : 8 * 64 = 512) Q (k0_pay12 Lc) (k0_pay13 Ls) y := by
  refine View.canon_apply_of_pieces (headTiles (by decide : 8 * 64 = 512) Q (k0_pay12 Lc) (k0_pay13 Ls)) _ ?_ y
    (cover0_13 _ _ _ _ _ _ _ _ y)
  intro pc hpc
  rcases List.mem_cons.mp hpc with rfl | hpc  -- head 7
  · exact fun x => (congrFun (show k0_pay2 Q (k0_pay12 Lc) (k0_pay13 Ls) = ropeTile (extractStridedSlice S256x64 ![0, 448] Q slices_S256x512_o0_448_S256x64) (k0_pay12 Lc) (k0_pay13 Ls) from rfl) x).trans
      (tilePiece (by decide : 8 * 64 = 512) Q (k0_pay12 Lc) (k0_pay13 Ls) ⟨7, by decide⟩ 448 rfl slices_S256x512_o0_448_S256x64 x _
        (unitIdx 7 (by decide) inb_S1x8x256x64_S1x1x256x64_0_7_0_0 x))
  rcases List.mem_cons.mp hpc with rfl | hpc  -- head 6
  · exact fun x => (congrFun (show k0_pay82 Q (k0_pay12 Lc) (k0_pay13 Ls) = ropeTile (extractStridedSlice S256x64 ![0, 384] Q slices_S256x512_o0_384_S256x64) (k0_pay12 Lc) (k0_pay13 Ls) from rfl) x).trans
      (tilePiece (by decide : 8 * 64 = 512) Q (k0_pay12 Lc) (k0_pay13 Ls) ⟨6, by decide⟩ 384 rfl slices_S256x512_o0_384_S256x64 x _
        (unitIdx 6 (by decide) inb_S1x8x256x64_S1x1x256x64_0_6_0_0 x))
  rcases List.mem_cons.mp hpc with rfl | hpc  -- head 5
  · exact fun x => (congrFun (show k0_pay80 Q (k0_pay12 Lc) (k0_pay13 Ls) = ropeTile (extractStridedSlice S256x64 ![0, 320] Q slices_S256x512_o0_320_S256x64) (k0_pay12 Lc) (k0_pay13 Ls) from rfl) x).trans
      (tilePiece (by decide : 8 * 64 = 512) Q (k0_pay12 Lc) (k0_pay13 Ls) ⟨5, by decide⟩ 320 rfl slices_S256x512_o0_320_S256x64 x _
        (unitIdx 5 (by decide) inb_S1x8x256x64_S1x1x256x64_0_5_0_0 x))
  rcases List.mem_cons.mp hpc with rfl | hpc  -- head 4
  · exact fun x => (congrFun (show k0_pay78 (k0_pay77 Q (k0_pay12 Lc) (k0_pay13 Ls)) = ropeTile (extractStridedSlice S256x64 ![0, 256] Q slices_S256x512_o0_256_S256x64) (k0_pay12 Lc) (k0_pay13 Ls) from rfl) x).trans
      (tilePiece (by decide : 8 * 64 = 512) Q (k0_pay12 Lc) (k0_pay13 Ls) ⟨4, by decide⟩ 256 rfl slices_S256x512_o0_256_S256x64 x _
        (unitIdx 4 (by decide) inb_S1x8x256x64_S1x1x256x64_0_4_0_0 x))
  rcases List.mem_cons.mp hpc with rfl | hpc  -- head 3
  · exact fun x => (congrFun (show k0_pay75 Q (k0_pay12 Lc) (k0_pay13 Ls) = ropeTile (extractStridedSlice S256x64 ![0, 192] Q slices_S256x512_o0_192_S256x64) (k0_pay12 Lc) (k0_pay13 Ls) from rfl) x).trans
      (tilePiece (by decide : 8 * 64 = 512) Q (k0_pay12 Lc) (k0_pay13 Ls) ⟨3, by decide⟩ 192 rfl slices_S256x512_o0_192_S256x64 x _
        (unitIdx 3 (by decide) inb_S1x8x256x64_S1x1x256x64_0_3_0_0 x))
  rcases List.mem_cons.mp hpc with rfl | hpc  -- head 2
  · exact fun x => (congrFun (show k0_pay73 (k0_pay13 Ls) (k0_pay71 Q) (k0_pay72 Q (k0_pay12 Lc)) = ropeTile (extractStridedSlice S256x64 ![0, 128] Q slices_S256x512_o0_128_S256x64) (k0_pay12 Lc) (k0_pay13 Ls) from rfl) x).trans
      (tilePiece (by decide : 8 * 64 = 512) Q (k0_pay12 Lc) (k0_pay13 Ls) ⟨2, by decide⟩ 128 rfl slices_S256x512_o0_128_S256x64 x _
        (unitIdx 2 (by decide) inb_S1x8x256x64_S1x1x256x64_0_2_0_0 x))
  rcases List.mem_cons.mp hpc with rfl | hpc  -- head 1
  · exact fun x => (congrFun (show k0_pay68 Q (k0_pay12 Lc) (k0_pay13 Ls) = ropeTile (extractStridedSlice S256x64 ![0, 64] Q slices_S256x512_o0_64_S256x64) (k0_pay12 Lc) (k0_pay13 Ls) from rfl) x).trans
      (tilePiece (by decide : 8 * 64 = 512) Q (k0_pay12 Lc) (k0_pay13 Ls) ⟨1, by decide⟩ 64 rfl slices_S256x512_o0_64_S256x64 x _
        (unitIdx 1 (by decide) inb_S1x8x256x64_S1x1x256x64_0_1_0_0 x))
  rcases List.mem_cons.mp hpc with rfl | hpc  -- head 0
  · exact fun x => (congrFun (show k0_pay66 (k0_pay12 Lc) (k0_pay13 Ls) (k0_pay64 Q) (k0_pay65 Q) = ropeTile (extractStridedSlice S256x64 ![0, 0] Q slices_S256x512_o0_0_S256x64) (k0_pay12 Lc) (k0_pay13 Ls) from rfl) x).trans
      (tilePiece (by decide : 8 * 64 = 512) Q (k0_pay12 Lc) (k0_pay13 Ls) ⟨0, by decide⟩ 0 rfl slices_S256x512_o0_0_S256x64 x _
        (unitIdx 0 (by decide) inb_S1x8x256x64_S1x1x256x64_0_0_0_0 x))
  nomatch hpc

end Cert.LayerHead.Body

end
-- ==== Proof.Cover.lean ====
/-
  The four result arrays are tiled by their windows' blocks.

  The grid has 2 · 16 = 32 points; point t has a batch coordinate b < 2 and a tile coordinate s < 16.  The input
  and the first result are cut into blocks of one batch entry and 256 positions, block index (b, s, 0); the three
  head arrays, laid out as (batch, head, position, entry), are cut into blocks of one batch entry, all heads and
  256 positions, block index (b, 0, s, 0); the weights and biases are single blocks, index 0 everywhere.  So the
  block indices of the different windows agree coordinate by coordinate (decided over the 32 points), an index
  lies in point t's block exactly when every coordinate lies in the block's range on its axis, and every index
  of a result array lies in the block of the point with b = its batch coordinate and s = its position / 256:
  the blocks fill the arrays, with nothing left over.
-/
import proofs.«172209_j10256381903693_1_alg».proof.Proof.Gen.KernelIdeal.Value
import Idealize.ShloMosaic.Lib.Pipeline.Value

noncomputable section

namespace Cert.LayerHead.Cover

open Cert.KernelIdeal Cert.KernelIdeal.Gen Idealize.ShloMosaic Idealize.ShloMosaic.TcCoe Idealize.SL.Sem

variable {F : FTy → Type} [FloatOps F]

/-! ## The index maps, decided over the grid -/

/-- Point t's batch block index is t / 16 and its tile block index is t % 16. -/
theorem idx_point : ∀ t : Fin cfg0.N,
    win0_12.index t (0 : Fin 4) = t.val / 16 ∧ win0_12.index t (2 : Fin 4) = t.val % 16 :=
  (by decide +kernel : ∀ t : Fin grid0.N, _)

/-- Input window 0 moves with the query heads' window: same batch and tile block, its last block index 0; the query
    window's head and entry block indices are 0, its batch block index at most 1 and its tile block index at most 15. -/
theorem idx_facts0 : ∀ t : Fin cfg0.N,
    win0_0.index t (0 : Fin 3) = win0_12.index t (0 : Fin 4)
    ∧ win0_0.index t (1 : Fin 3) = win0_12.index t (2 : Fin 4)
    ∧ win0_0.index t (2 : Fin 3) = 0
    ∧ win0_12.index t (1 : Fin 4) = 0
    ∧ win0_12.index t (3 : Fin 4) = 0
    ∧ win0_12.index t (0 : Fin 4) ≤ 1
    ∧ win0_12.index t (2 : Fin 4) ≤ 15 :=
  (by decide +kernel : ∀ t : Fin grid0.N, _)

/-- Input window 1 moves with the query heads' window: same batch and tile block, its last block index 0; the query
    window's head and entry block indices are 0, its batch block index at most 1 and its tile block index at most 15. -/
theorem idx_facts1 : ∀ t : Fin cfg0.N,
    win0_1.index t (0 : Fin 3) = win0_12.index t (0 : Fin 4)
    ∧ win0_1.index t (1 : Fin 3) = win0_12.index t (2 : Fin 4)
    ∧ win0_1.index t (2 : Fin 3) = 0
    ∧ win0_12.index t (1 : Fin 4) = 0
    ∧ win0_12.index t (3 : Fin 4) = 0
    ∧ win0_12.index t (0 : Fin 4) ≤ 1
    ∧ win0_12.index t (2 : Fin 4) ≤ 15 :=
  (by decide +kernel : ∀ t : Fin grid0.N, _)

/-- Input window 2 moves with the query heads' window: same batch and tile block, its last block index 0; the query
    window's head and entry block indices are 0, its batch block index at most 1 and its tile block index at most 15. -/
theorem idx_facts2 : ∀ t : Fin cfg0.N,
    win0_2.index t (0 : Fin 3) = win0_12.index t (0 : Fin 4)
    ∧ win0_2.index t (1 : Fin 3) = win0_12.index t (2 : Fin 4)
    ∧ win0_2.index t (2 : Fin 3) = 0
    ∧ win0_12.index t (1 : Fin 4) = 0
    ∧ win0_12.index t (3 : Fin 4) = 0
    ∧ win0_12.index t (0 : Fin 4) ≤ 1
    ∧ win0_12.index t (2 : Fin 4) ≤ 15 :=
  (by decide +kernel : ∀ t : Fin grid0.N, _)

/-- The key heads' window has the query heads' block index, coordinate by coordinate. -/
theorem idx_facts13 : ∀ t : Fin cfg0.N,
    win0_13.index t (0 : Fin 4) = win0_12.index t (0 : Fin 4)
    ∧ win0_13.index t (1 : Fin 4) = win0_12.index t (1 : Fin 4)
    ∧ win0_13.index t (2 : Fin 4) = win0_12.index t (2 : Fin 4)
    ∧ win0_13.index t (3 : Fin 4) = win0_12.index t (3 : Fin 4) :=
  (by decide +kernel : ∀ t : Fin grid0.N, _)

/-- The value heads' window has the query heads' block index, coordinate by coordinate. -/
theorem idx_facts14 : ∀ t : Fin cfg0.N,
    win0_14.index t (0 : Fin 4) = win0_12.index t (0 : Fin 4)
    ∧ win0_14.index t (1 : Fin 4) = win0_12.index t (1 : Fin 4)
    ∧ win0_14.index t (2 : Fin 4) = win0_12.index t (2 : Fin 4)
    ∧ win0_14.index t (3 : Fin 4) = win0_12.index t (3 : Fin 4) :=
  (by decide +kernel : ∀ t : Fin grid0.N, _)

/-- The first result's window has the input window's block index, coordinate by coordinate. -/
theorem idx_facts11 : ∀ t : Fin cfg0.N,
    win0_11.index t (0 : Fin 3) = win0_0.index t (0 : Fin 3)
    ∧ win0_11.index t (1 : Fin 3) = win0_0.index t (1 : Fin 3)
    ∧ win0_11.index t (2 : Fin 3) = win0_0.index t (2 : Fin 3) :=
  (by decide +kernel : ∀ t : Fin grid0.N, _)

/-- The weight and bias windows are single blocks: every block index is 0 at every point. -/
theorem idx_facts_whole : ∀ t : Fin cfg0.N,
    win0_3.index t (0 : Fin 1) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## The first result: blocks of one batch entry and 256 positions -/

/-- Every pair of a batch and a tile block index is some point's. -/
theorem idx_onto11 : ∀ (q0 : Fin 2) (q1 : Fin 16), ∃ t : Fin cfg0.N, win0_11.index t = ![q0.val, q1.val, 0] :=
  (by decide +kernel : ∀ (q0 : Fin 2) (q1 : Fin 16), ∃ t : Fin grid0.N, win0_11.index t = ![q0.val, q1.val, 0])

/-- An index of the array is in point `t`'s block iff each coordinate is in the block's range on its axis. -/
theorem mem_blk11 (t : Fin cfg0.N) (i : S2x4096x2048.Idx) :
    i ∈ ((cfg0.win 11).blk t).view.set ↔ ∀ a : Fin 3, win0_11.index t a * S1x256x2048.size a ≤ (i a).val ∧ (i a).val < win0_11.index t a * S1x256x2048.size a + S1x256x2048.size a := by
  show i ∈ ((View.whole main_v6_0).slice (win0_11.rect t)).set ↔ _
  rw [View.set_slice_whole, Rect.mem_set_unit]
  exact Iff.rfl

/-- Every index of the array is in the block of some point that writes back. -/
theorem covered11 (i : S2x4096x2048.Idx) :
    ∃ t : Fin cfg0.N, (cfg0.win 11).flush t = true ∧ i ∈ ((cfg0.win 11).blk t).view.set := by
  have hi0 : (i 0).val < 2 := (i 0).isLt
  have hi1 : (i 1).val < 4096 := (i 1).isLt
  have hi2 : (i 2).val < 2048 := (i 2).isLt
  obtain ⟨t, ht⟩ := idx_onto11 ⟨(i 0).val, by omega⟩ ⟨(i 1).val / 256, by omega⟩
  have q0 : win0_11.index t (0 : Fin 3) = (i 0).val := congrFun ht 0
  have q1 : win0_11.index t (1 : Fin 3) = (i 1).val / 256 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 2048 ≤ (i 2).val ∧ (i 2).val < win0_11.index t (2 : Fin 3) * 2048 + 2048; omega

/-! ## The query heads: blocks of one batch entry, all 32 heads and 256 positions -/

/-- Every pair of a batch and a tile block index is some point's. -/
theorem idx_onto12 : ∀ (q0 : Fin 2) (q2 : Fin 16), ∃ t : Fin cfg0.N, win0_12.index t = ![q0.val, 0, q2.val, 0] :=
  (by decide +kernel : ∀ (q0 : Fin 2) (q2 : Fin 16), ∃ t : Fin grid0.N, win0_12.index t = ![q0.val, 0, q2.val, 0])

/-- An index of the array is in point `t`'s block iff each coordinate is in the block's range on its axis. -/
theorem mem_blk12 (t : Fin cfg0.N) (i : S2x32x4096x64.Idx) :
    i ∈ ((cfg0.win 12).blk t).view.set ↔ ∀ a : Fin 4, win0_12.index t a * S1x32x256x64.size a ≤ (i a).val ∧ (i a).val < win0_12.index t a * S1x32x256x64.size a + S1x32x256x64.size a := by
  show i ∈ ((View.whole main_v6_1).slice (win0_12.rect t)).set ↔ _
  rw [View.set_slice_whole, Rect.mem_set_unit]
  exact Iff.rfl

/-- Every index of the array is in the block of some point that writes back. -/
theorem covered12 (i : S2x32x4096x64.Idx) :
    ∃ t : Fin cfg0.N, (cfg0.win 12).flush t = true ∧ i ∈ ((cfg0.win 12).blk t).view.set := by
  have hi0 : (i 0).val < 2 := (i 0).isLt
  have hi1 : (i 1).val < 32 := (i 1).isLt
  have hi2 : (i 2).val < 4096 := (i 2).isLt
  have hi3 : (i 3).val < 64 := (i 3).isLt
  obtain ⟨t, ht⟩ := idx_onto12 ⟨(i 0).val, by omega⟩ ⟨(i 2).val / 256, by omega⟩
  have q0 : win0_12.index t (0 : Fin 4) = (i 0).val := congrFun ht 0
  have q1 : win0_12.index t (1 : Fin 4) = 0 := congrFun ht 1
  have q2 : win0_12.index t (2 : Fin 4) = (i 2).val / 256 := congrFun ht 2
  have q3 : win0_12.index t (3 : Fin 4) = 0 := congrFun ht 3
  refine ⟨t, flush0_12 t, ?_⟩
  rw [mem_blk12]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 32 ≤ (i 1).val ∧ (i 1).val < win0_12.index t (1 : Fin 4) * 32 + 32; omega
  | ⟨2, _⟩ => show win0_12.index t (2 : Fin 4) * 256 ≤ (i 2).val ∧ (i 2).val < win0_12.index t (2 : Fin 4) * 256 + 256; omega
  | ⟨3, _⟩ => show win0_12.index t (3 : Fin 4) * 64 ≤ (i 3).val ∧ (i 3).val < win0_12.index t (3 : Fin 4) * 64 + 64; omega

/-! ## The key heads: blocks of one batch entry, all 8 heads and 256 positions -/

/-- Every pair of a batch and a tile block index is some point's. -/
theorem idx_onto13 : ∀ (q0 : Fin 2) (q2 : Fin 16), ∃ t : Fin cfg0.N, win0_13.index t = ![q0.val, 0, q2.val, 0] :=
  (by decide +kernel : ∀ (q0 : Fin 2) (q2 : Fin 16), ∃ t : Fin grid0.N, win0_13.index t = ![q0.val, 0, q2.val, 0])

/-- An index of the array is in point `t`'s block iff each coordinate is in the block's range on its axis. -/
theorem mem_blk13 (t : Fin cfg0.N) (i : S2x8x4096x64.Idx) :
    i ∈ ((cfg0.win 13).blk t).view.set ↔ ∀ a : Fin 4, win0_13.index t a * S1x8x256x64.size a ≤ (i a).val ∧ (i a).val < win0_13.index t a * S1x8x256x64.size a + S1x8x256x64.size a := by
  show i ∈ ((View.whole main_v6_2).slice (win0_13.rect t)).set ↔ _
  rw [View.set_slice_whole, Rect.mem_set_unit]
  exact Iff.rfl

/-- Every index of the array is in the block of some point that writes back. -/
theorem covered13 (i : S2x8x4096x64.Idx) :
    ∃ t : Fin cfg0.N, (cfg0.win 13).flush t = true ∧ i ∈ ((cfg0.win 13).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto13 ⟨(i 0).val, by omega⟩ ⟨(i 2).val / 256, by omega⟩
  have q0 : win0_13.index t (0 : Fin 4) = (i 0).val := congrFun ht 0
  have q1 : win0_13.index t (1 : Fin 4) = 0 := congrFun ht 1
  have q2 : win0_13.index t (2 : Fin 4) = (i 2).val / 256 := congrFun ht 2
  have q3 : win0_13.index t (3 : Fin 4) = 0 := congrFun ht 3
  refine ⟨t, flush0_13 t, ?_⟩
  rw [mem_blk13]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 8 ≤ (i 1).val ∧ (i 1).val < win0_13.index t (1 : Fin 4) * 8 + 8; omega
  | ⟨2, _⟩ => show win0_13.index t (2 : Fin 4) * 256 ≤ (i 2).val ∧ (i 2).val < win0_13.index t (2 : Fin 4) * 256 + 256; omega
  | ⟨3, _⟩ => show win0_13.index t (3 : Fin 4) * 64 ≤ (i 3).val ∧ (i 3).val < win0_13.index t (3 : Fin 4) * 64 + 64; omega

/-! ## The value heads: blocks of one batch entry, all 8 heads and 256 positions -/

/-- Every pair of a batch and a tile block index is some point's. -/
theorem idx_onto14 : ∀ (q0 : Fin 2) (q2 : Fin 16), ∃ t : Fin cfg0.N, win0_14.index t = ![q0.val, 0, q2.val, 0] :=
  (by decide +kernel : ∀ (q0 : Fin 2) (q2 : Fin 16), ∃ t : Fin grid0.N, win0_14.index t = ![q0.val, 0, q2.val, 0])

/-- An index of the array is in point `t`'s block iff each coordinate is in the block's range on its axis. -/
theorem mem_blk14 (t : Fin cfg0.N) (i : S2x8x4096x64.Idx) :
    i ∈ ((cfg0.win 14).blk t).view.set ↔ ∀ a : Fin 4, win0_14.index t a * S1x8x256x64.size a ≤ (i a).val ∧ (i a).val < win0_14.index t a * S1x8x256x64.size a + S1x8x256x64.size a := by
  show i ∈ ((View.whole main_v6_3).slice (win0_14.rect t)).set ↔ _
  rw [View.set_slice_whole, Rect.mem_set_unit]
  exact Iff.rfl

/-- Every index of the array is in the block of some point that writes back. -/
theorem covered14 (i : S2x8x4096x64.Idx) :
    ∃ t : Fin cfg0.N, (cfg0.win 14).flush t = true ∧ i ∈ ((cfg0.win 14).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto14 ⟨(i 0).val, by omega⟩ ⟨(i 2).val / 256, by omega⟩
  have q0 : win0_14.index t (0 : Fin 4) = (i 0).val := congrFun ht 0
  have q1 : win0_14.index t (1 : Fin 4) = 0 := congrFun ht 1
  have q2 : win0_14.index t (2 : Fin 4) = (i 2).val / 256 := congrFun ht 2
  have q3 : win0_14.index t (3 : Fin 4) = 0 := congrFun ht 3
  refine ⟨t, flush0_14 t, ?_⟩
  rw [mem_blk14]
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 8 ≤ (i 1).val ∧ (i 1).val < win0_14.index t (1 : Fin 4) * 8 + 8; omega
  | ⟨2, _⟩ => show win0_14.index t (2 : Fin 4) * 256 ≤ (i 2).val ∧ (i 2).val < win0_14.index t (2 : Fin 4) * 256 + 256; omega
  | ⟨3, _⟩ => show win0_14.index t (3 : Fin 4) * 64 ≤ (i 3).val ∧ (i 3).val < win0_14.index t (3 : Fin 4) * 64 + 64; omega

end Cert.LayerHead.Cover

end
-- ==== Proof.Blocks.lean ====
/-
  From blocks to arrays.

  The grid has 2 · 16 points; point t handles batch b and the 256 positions 256 · s … 256 · s + 255, where (b, s)
  are the point's block indices.  An input block read at a block index is the array read at the index under it: for
  the input and the angle tables, row r of the block is row 256 · s + r of batch b; the vectors and the weight
  matrices are whole at every point.  The weight matrices reach the body transposed (and rounded, which changes
  nothing over the extended reals): entry (k, o) of what the body loads is entry (o, k) of the argument.
  An output block written back at point t is the block of the result array under it; the blocks of the 32 points
  are disjoint and fill each result array.
-/
import proofs.«172209_j10256381903693_1_alg».proof.Proof.Gen.KernelIdeal.Value
import proofs.«172209_j10256381903693_1_alg».proof.Proof.Spec
import proofs.«172209_j10256381903693_1_alg».proof.Proof.Layer
import proofs.«172209_j10256381903693_1_alg».proof.Proof.Pieces
import proofs.«172209_j10256381903693_1_alg».proof.Proof.Cover
import proofs.«172209_j10256381903693_1_alg».proof.Proof.Pieces
import Idealize.ShloMosaic.Lib.Pipeline.Value
import Idealize.ShloMosaic.Lib.ValueLayout
import Idealize.ShloMosaic.Lib.ValueIdx
import Idealize.ShloMosaic.Lib.StableHlo.Run

noncomputable section

namespace Cert.LayerHead.Blocks

open Cert.KernelIdeal Cert.KernelIdeal.Gen Cert.KernelIdeal.Value Cert.LayerHead Cert.LayerHead.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the input and the angle tables move with the point's
    batch and tile; every other input block sits at the origin; the output blocks move the same way. -/
theorem idxFacts : ∀ t : Fin cfg0.N,
    win0_0.index t (0 : Fin 3) ≤ 1 ∧ win0_0.index t (1 : Fin 3) ≤ 15 ∧ win0_0.index t (2 : Fin 3) = 0
    ∧ win0_1.index t (0 : Fin 3) = win0_0.index t (0 : Fin 3) ∧ win0_1.index t (1 : Fin 3) = win0_0.index t (1 : Fin 3) ∧ win0_1.index t (2 : Fin 3) = 0
    ∧ win0_2.index t (0 : Fin 3) = win0_0.index t (0 : Fin 3) ∧ win0_2.index t (1 : Fin 3) = win0_0.index t (1 : Fin 3) ∧ win0_2.index t (2 : Fin 3) = 0
    ∧ win0_3.index t (0 : Fin 1) = 0 ∧ win0_4.index t (0 : Fin 1) = 0 ∧ win0_6.index t (0 : Fin 1) = 0
    ∧ win0_8.index t (0 : Fin 1) = 0 ∧ win0_10.index t (0 : Fin 1) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

theorem outFacts : ∀ t : Fin cfg0.N,
    win0_11.index t (0 : Fin 3) = win0_0.index t (0 : Fin 3) ∧ win0_11.index t (1 : Fin 3) = win0_0.index t (1 : Fin 3) ∧ win0_11.index t (2 : Fin 3) = 0
    ∧ win0_12.index t (0 : Fin 4) = win0_0.index t (0 : Fin 3) ∧ win0_12.index t (1 : Fin 4) = 0 ∧ win0_12.index t (2 : Fin 4) = win0_0.index t (1 : Fin 3) ∧ win0_12.index t (3 : Fin 4) = 0
    ∧ win0_13.index t (0 : Fin 4) = win0_0.index t (0 : Fin 3) ∧ win0_13.index t (1 : Fin 4) = 0 ∧ win0_13.index t (2 : Fin 4) = win0_0.index t (1 : Fin 3) ∧ win0_13.index t (3 : Fin 4) = 0
    ∧ win0_14.index t (0 : Fin 4) = win0_0.index t (0 : Fin 3) ∧ win0_14.index t (1 : Fin 4) = 0 ∧ win0_14.index t (2 : Fin 4) = win0_0.index t (1 : Fin 3) ∧ win0_14.index t (3 : Fin 4) = 0 :=
  (by decide +kernel : ∀ t : Fin grid0.N, _)

/-- The batch of point t. -/
def pb (t : Fin cfg0.N) : Fin 2 := ⟨win0_0.index t (0 : Fin 3), by have := (idxFacts t).1; omega⟩
/-- Row r of point t's blocks is this position of the sequence. -/
def prow (t : Fin cfg0.N) (r : Fin 256) : Fin 4096 :=
  ⟨win0_0.index t (1 : Fin 3) * 256 + r.val, by have := (idxFacts t).2.1; have := r.isLt; omega⟩

/-- The input block at point t, row r: row (batch, position) of the input. -/
theorem read0 (c : Dev nD) (t : Fin cfg0.N) (r : Fin 256) :
    blockRow (iblk m c 0 t) r = fun k => V m c main_arg0 (ix3 (pb t) (prow t r) k) := by
  funext k
  obtain ⟨-, -, e2, -⟩ := idxFacts t
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = win0_0.index t (0 : Fin 3); omega
  | ⟨1, _⟩ => show win0_0.index t (1 : Fin 3) * 256 + 1 * r.val = win0_0.index t (1 : Fin 3) * 256 + r.val; omega
  | ⟨2, _⟩ => show win0_0.index t (2 : Fin 3) * 2048 + 1 * k.val = k.val; omega

/-- The input block row, in terms of the argument as launched. -/
theorem readRow (c : Dev nD) (t : Fin cfg0.N) (r : Fin 256) :
    blockRow (iblk m c 0 t) r = fun k => m ((c : Thread nD τ).loc main_arg0) (ix3 (pb t) (prow t r) k) := by
  rw [read0 m c t r, V_main_arg0 m c]

theorem readAngle1 (c : Dev nD) (t : Fin cfg0.N) (r : Fin 256) (e : Fin 64) :
    k0_pay12 (iblk m c 1 t) (ix2 r e) = m ((c : Thread nD τ).loc main_arg1) (ix3 (pb t) (prow t r) e) := by
  obtain ⟨-, -, -, a0, a1, a2, b0, b1, b2, -⟩ := idxFacts t
  unfold k0_pay12
  refine (shapeCast_1ab_ab_apply _ shapeCasts_S1x256x64_S256x64 r e).trans ?_
  rw [← V_main_arg1 m c]
  show V m c main_arg1 (((cfg0.win 1).blk t).view.emb (ix3 (0 : Fin 1) r e)) = _
  refine congrArg (V m c main_arg1) (funext fun a => Fin.ext ?_)
  match a with
  | ⟨0, _⟩ => show win0_1.index t (0 : Fin 3) * 1 + 1 * 0 = win0_0.index t (0 : Fin 3); omega
  | ⟨1, _⟩ => show win0_1.index t (1 : Fin 3) * 256 + 1 * r.val = win0_0.index t (1 : Fin 3) * 256 + r.val; omega
  | ⟨2, _⟩ => show win0_1.index t (2 : Fin 3) * 64 + 1 * e.val = e.val; omega

theorem readAngle2 (c : Dev nD) (t : Fin cfg0.N) (r : Fin 256) (e : Fin 64) :
    k0_pay13 (iblk m c 2 t) (ix2 r e) = m ((c : Thread nD τ).loc main_arg2) (ix3 (pb t) (prow t r) e) := by
  obtain ⟨-, -, -, a0, a1, a2, b0, b1, b2, -⟩ := idxFacts t
  unfold k0_pay13
  refine (shapeCast_1ab_ab_apply _ shapeCasts_S1x256x64_S256x64 r e).trans ?_
  rw [← V_main_arg2 m c]
  show V m c main_arg2 (((cfg0.win 2).blk t).view.emb (ix3 (0 : Fin 1) r e)) = _
  refine congrArg (V m c main_arg2) (funext fun a => Fin.ext ?_)
  match a with
  | ⟨0, _⟩ => show win0_2.index t (0 : Fin 3) * 1 + 1 * 0 = win0_0.index t (0 : Fin 3); omega
  | ⟨1, _⟩ => show win0_2.index t (1 : Fin 3) * 256 + 1 * r.val = win0_0.index t (1 : Fin 3) * 256 + r.val; omega
  | ⟨2, _⟩ => show win0_2.index t (2 : Fin 3) * 64 + 1 * e.val = e.val; omega

theorem readVec3 (c : Dev nD) (t : Fin cfg0.N) :
    vecFn (iblk m c 3 t) = fun k => m ((c : Thread nD τ).loc main_arg3) (ix1 k) := by
  funext k
  have e0 : win0_3.index t (0 : Fin 1) = 0 := by have h := idxFacts t; omega
  rw [← V_main_arg3 m c]
  show V m c main_arg3 (((cfg0.win 3).blk t).view.emb (ix1 k)) = _
  refine congrArg (V m c main_arg3) (funext fun a => Fin.ext ?_)
  match a with
  | ⟨0, _⟩ => show win0_3.index t (0 : Fin 1) * 2048 + 1 * k.val = k.val; omega

theorem readVec4 (c : Dev nD) (t : Fin cfg0.N) :
    vecFn (iblk m c 4 t) = fun k => m ((c : Thread nD τ).loc main_arg4) (ix1 k) := by
  funext k
  have e0 : win0_4.index t (0 : Fin 1) = 0 := by have h := idxFacts t; omega
  rw [← V_main_arg4 m c]
  show V m c main_arg4 (((cfg0.win 4).blk t).view.emb (ix1 k)) = _
  refine congrArg (V m c main_arg4) (funext fun a => Fin.ext ?_)
  match a with
  | ⟨0, _⟩ => show win0_4.index t (0 : Fin 1) * 2048 + 1 * k.val = k.val; omega

theorem readVec6 (c : Dev nD) (t : Fin cfg0.N) :
    vecFn (iblk m c 6 t) = fun k => m ((c : Thread nD τ).loc main_arg6) (ix1 k) := by
  funext k
  have e0 : win0_6.index t (0 : Fin 1) = 0 := by have h := idxFacts t; omega
  rw [← V_main_arg6 m c]
  show V m c main_arg6 (((cfg0.win 6).blk t).view.emb (ix1 k)) = _
  refine congrArg (V m c main_arg6) (funext fun a => Fin.ext ?_)
  match a with
  | ⟨0, _⟩ => show win0_6.index t (0 : Fin 1) * 2048 + 1 * k.val = k.val; omega

theorem readVec8 (c : Dev nD) (t : Fin cfg0.N) :
    vecFn (iblk m c 8 t) = fun k => m ((c : Thread nD τ).loc main_arg8) (ix1 k) := by
  funext k
  have e0 : win0_8.index t (0 : Fin 1) = 0 := by have h := idxFacts t; omega
  rw [← V_main_arg8 m c]
  show V m c main_arg8 (((cfg0.win 8).blk t).view.emb (ix1 k)) = _
  refine congrArg (V m c main_arg8) (funext fun a => Fin.ext ?_)
  match a with
  | ⟨0, _⟩ => show win0_8.index t (0 : Fin 1) * 512 + 1 * k.val = k.val; omega

theorem readVec10 (c : Dev nD) (t : Fin cfg0.N) :
    vecFn (iblk m c 10 t) = fun k => m ((c : Thread nD τ).loc main_arg10) (ix1 k) := by
  funext k
  have e0 : win0_10.index t (0 : Fin 1) = 0 := by have h := idxFacts t; omega
  rw [← V_main_arg10 m c]
  show V m c main_arg10 (((cfg0.win 10).blk t).view.emb (ix1 k)) = _
  refine congrArg (V m c main_arg10) (funext fun a => Fin.ext ?_)
  match a with
  | ⟨0, _⟩ => show win0_10.index t (0 : Fin 1) * 512 + 1 * k.val = k.val; omega

/-- What the host hands the body for this weight matrix: the argument transposed, then rounded. -/
theorem host5 (c : Dev nD) :
    (V m c main_v1 : (⟨S2048x2048, .bf16⟩ : BufTy).Contents (Elt Ideal))
      = (truncf (F := Ideal) .bf16 (transpose S2048x2048 [1, 0] (m ((c : Thread nD τ).loc main_arg5)) transposes_S2048x2048_S2048x2048_1_0) bitsLt_bf16_f32 : (⟨S2048x2048, .bf16⟩ : BufTy).Contents (Elt Ideal)) := by
  dsimp only [Gen.V, Gen.hostOps0]
  after_results

theorem readW5 (c : Dev nD) (t : Fin cfg0.N) (o : Fin 2048) :
    (fun k : Fin 2048 => iblk m c 5 t (ix2 k o)) = fun k => m ((c : Thread nD τ).loc main_arg5) (ix2 o k) := by
  funext k
  have e0 : win0_5.index t (0 : Fin 2) = 0 := by have h := idxFacts t; omega
  have e1 : win0_5.index t (1 : Fin 2) = 0 := by have h := idxFacts t; omega
  have hrd : iblk m c 5 t (ix2 k o) = V m c main_v1 (ix2 k o) := by
    show V m c main_v1 (((cfg0.win 5).blk t).view.emb (ix2 k o)) = _
    refine congrArg (V m c main_v1) (funext fun a => Fin.ext ?_)
    match a with
    | ⟨0, _⟩ => show win0_5.index t (0 : Fin 2) * 2048 + 1 * k.val = k.val; omega
    | ⟨1, _⟩ => show win0_5.index t (1 : Fin 2) * 2048 + 1 * o.val = o.val; omega
  rw [hrd, host5 m c]
  exact transpose_ix2_apply _ transposes_S2048x2048_S2048x2048_1_0 k o

/-- What the host hands the body for this weight matrix: the argument transposed, then rounded. -/
theorem host7 (c : Dev nD) :
    (V m c main_v3 : (⟨S2048x512, .bf16⟩ : BufTy).Contents (Elt Ideal))
      = (truncf (F := Ideal) .bf16 (transpose S2048x512 [1, 0] (m ((c : Thread nD τ).loc main_arg7)) transposes_S512x2048_S2048x512_1_0) bitsLt_bf16_f32 : (⟨S2048x512, .bf16⟩ : BufTy).Contents (Elt Ideal)) := by
  dsimp only [Gen.V, Gen.hostOps0]
  after_results

theorem readW7 (c : Dev nD) (t : Fin cfg0.N) (o : Fin 512) :
    (fun k : Fin 2048 => iblk m c 7 t (ix2 k o)) = fun k => m ((c : Thread nD τ).loc main_arg7) (ix2 o k) := by
  funext k
  have e0 : win0_7.index t (0 : Fin 2) = 0 := by have h := idxFacts t; omega
  have e1 : win0_7.index t (1 : Fin 2) = 0 := by have h := idxFacts t; omega
  have hrd : iblk m c 7 t (ix2 k o) = V m c main_v3 (ix2 k o) := by
    show V m c main_v3 (((cfg0.win 7).blk t).view.emb (ix2 k o)) = _
    refine congrArg (V m c main_v3) (funext fun a => Fin.ext ?_)
    match a with
    | ⟨0, _⟩ => show win0_7.index t (0 : Fin 2) * 2048 + 1 * k.val = k.val; omega
    | ⟨1, _⟩ => show win0_7.index t (1 : Fin 2) * 512 + 1 * o.val = o.val; omega
  rw [hrd, host7 m c]
  exact transpose_ix2_apply _ transposes_S512x2048_S2048x512_1_0 k o

/-- What the host hands the body for this weight matrix: the argument transposed, then rounded. -/
theorem host9 (c : Dev nD) :
    (V m c main_v5 : (⟨S2048x512, .bf16⟩ : BufTy).Contents (Elt Ideal))
      = (truncf (F := Ideal) .bf16 (transpose S2048x512 [1, 0] (m ((c : Thread nD τ).loc main_arg9)) transposes_S512x2048_S2048x512_1_0) bitsLt_bf16_f32 : (⟨S2048x512, .bf16⟩ : BufTy).Contents (Elt Ideal)) := by
  dsimp only [Gen.V, Gen.hostOps0]
  after_results

theorem readW9 (c : Dev nD) (t : Fin cfg0.N) (o : Fin 512) :
    (fun k : Fin 2048 => iblk m c 9 t (ix2 k o)) = fun k => m ((c : Thread nD τ).loc main_arg9) (ix2 o k) := by
  funext k
  have e0 : win0_9.index t (0 : Fin 2) = 0 := by have h := idxFacts t; omega
  have e1 : win0_9.index t (1 : Fin 2) = 0 := by have h := idxFacts t; omega
  have hrd : iblk m c 9 t (ix2 k o) = V m c main_v5 (ix2 k o) := by
    show V m c main_v5 (((cfg0.win 9).blk t).view.emb (ix2 k o)) = _
    refine congrArg (V m c main_v5) (funext fun a => Fin.ext ?_)
    match a with
    | ⟨0, _⟩ => show win0_9.index t (0 : Fin 2) * 2048 + 1 * k.val = k.val; omega
    | ⟨1, _⟩ => show win0_9.index t (1 : Fin 2) * 512 + 1 * o.val = o.val; omega
  rw [hrd, host9 m c]
  exact transpose_ix2_apply _ transposes_S512x2048_S2048x512_1_0 k o

/-- The rotary embedding depends only on the values of its three arguments. -/
theorem rope_congr {y y' c c' s s' : Fin 64 → EReal} (hy : ∀ e, y e = y' e) (hc : ∀ e, c e = c' e)
    (hs : ∀ e, s e = s' e) (d : Fin 64) : rope y c s d = rope y' c' s' d := by
  rw [funext hy, funext hc, funext hs]

/-- The query result array: the rotated heads of the query projection of the arguments as launched. -/
def resQ (c : Dev nD) : S2x32x4096x64.Idx → EReal := fun i =>
  ropedHeads (m ((c : Thread nD τ).loc main_arg0) : (⟨S2x4096x2048, .f32⟩ : BufTy).Contents (Elt Ideal)) (m ((c : Thread nD τ).loc main_arg1) : (⟨S2x4096x64, .f32⟩ : BufTy).Contents (Elt Ideal)) (m ((c : Thread nD τ).loc main_arg2) : (⟨S2x4096x64, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal)) (by decide : 32 * 64 = 2048)
    (m ((c : Thread nD τ).loc main_arg5) : (⟨S2048x2048, .f32⟩ : BufTy).Contents (Elt Ideal)) (m ((c : Thread nD τ).loc main_arg6) : (⟨S2048, .f32⟩ : BufTy).Contents (Elt Ideal)) (i 0) (i 1) (i 2) (i 3)

theorem embQ (t : Fin cfg0.N) (u : Fin 1) (hh : Fin 32) (r : Fin 256) (d : Fin 64) :
    ((cfg0.win 12).blk t).view.emb (ix4 u hh r d) = ix4 (pb t) hh (prow t r) d := by
  have h := outFacts t
  have hu : u.val < 1 := u.isLt
  funext a
  apply Fin.ext
  match a with
  | ⟨0, _⟩ => show win0_12.index t (0 : Fin 4) * 1 + 1 * u.val = win0_0.index t (0 : Fin 3); omega
  | ⟨1, _⟩ => show win0_12.index t (1 : Fin 4) * 32 + 1 * hh.val = hh.val; omega
  | ⟨2, _⟩ => show win0_12.index t (2 : Fin 4) * 256 + 1 * r.val = win0_0.index t (1 : Fin 3) * 256 + r.val; omega
  | ⟨3, _⟩ => show win0_12.index t (3 : Fin 4) * 64 + 1 * d.val = d.val; omega

/-- The query projection of point t's block at (r, col): the projection of row (batch, position). -/
theorem projQ_at (c : Dev nD) (t : Fin cfg0.N) (r : Fin 256) (col : Fin 2048) :
    k0_pay7 (iblk m c 0 t) (iblk m c 3 t) (iblk m c 4 t) (iblk m c 5 t) (iblk m c 6 t) (ix2 r col)
      = projRow (m ((c : Thread nD τ).loc main_arg0) : (⟨S2x4096x2048, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal))
          (m ((c : Thread nD τ).loc main_arg5) : (⟨S2048x2048, .f32⟩ : BufTy).Contents (Elt Ideal)) (m ((c : Thread nD τ).loc main_arg6) : (⟨S2048, .f32⟩ : BufTy).Contents (Elt Ideal)) (pb t) (prow t r) col := by
  refine (projWide (iblk m c 0 t) (iblk m c 3 t) (iblk m c 4 t) (iblk m c 5 t) (iblk m c 6 t) r col).trans ?_
  rw [readRow m c t r, readVec3 m c t, readVec4 m c t, readW5 m c t col, readVec6 m c t]
  rfl

/-- WHAT POINT t WRITES BACK to the query array is block t of the query result. -/
theorem wroteQ (c : Dev nD) (t : Fin cfg0.N) :
    (dats m 0 c).flushed 12 t = ((cfg0.win 12).blk t).view.read (Elt Ideal) (resQ m c) := by
  rw [flushed12]
  unfold out0_12
  simp only [View.ld_unit_zero (S := S1x256x2048) hz3, View.ld_unit_zero (S := S1x256x64) hz3,
    View.ld_unit_zero (S := S2048) hz1, View.ld_unit_zero (S := S2048x2048) hz2]
  funext y
  obtain ⟨u, hh, r, d, rfl⟩ : ∃ (u : Fin 1) (hh : Fin 32) (r : Fin 256) (d : Fin 64), y = ix4 u hh r d :=
    ⟨y 0, y 1, y 2, y 3, eq_ix4 y⟩
  show _ = resQ m c (((cfg0.win 12).blk t).view.emb (ix4 u hh r d))
  rw [embQ t u hh r d]
  refine (queryBlock _ _ _ (ix4 u hh r d)).trans ?_
  unfold headTiles resQ ropedHeads
  exact rope_congr (fun e => projQ_at m c t r _) (fun e => readAngle1 m c t r e) (fun e => readAngle2 m c t r e) d

/-- The key result array: the rotated heads of the key projection of the arguments as launched. -/
def resK (c : Dev nD) : S2x8x4096x64.Idx → EReal := fun i =>
  ropedHeads (m ((c : Thread nD τ).loc main_arg0) : (⟨S2x4096x2048, .f32⟩ : BufTy).Contents (Elt Ideal)) (m ((c : Thread nD τ).loc main_arg1) : (⟨S2x4096x64, .f32⟩ : BufTy).Contents (Elt Ideal)) (m ((c : Thread nD τ).loc main_arg2) : (⟨S2x4096x64, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal)) (by decide : 8 * 64 = 512)
    (m ((c : Thread nD τ).loc main_arg7) : (⟨S512x2048, .f32⟩ : BufTy).Contents (Elt Ideal)) (m ((c : Thread nD τ).loc main_arg8) : (⟨S512, .f32⟩ : BufTy).Contents (Elt Ideal)) (i 0) (i 1) (i 2) (i 3)

/-- The value result array: the heads of the value projection, not rotated. -/
def resV (c : Dev nD) : S2x8x4096x64.Idx → EReal := fun i =>
  plainHeads (m ((c : Thread nD τ).loc main_arg0) : (⟨S2x4096x2048, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal)) (by decide : 8 * 64 = 512)
    (m ((c : Thread nD τ).loc main_arg9) : (⟨S512x2048, .f32⟩ : BufTy).Contents (Elt Ideal)) (m ((c : Thread nD τ).loc main_arg10) : (⟨S512, .f32⟩ : BufTy).Contents (Elt Ideal)) (i 0) (i 1) (i 2) (i 3)

theorem embK (t : Fin cfg0.N) (u : Fin 1) (hh : Fin 8) (r : Fin 256) (d : Fin 64) :
    ((cfg0.win 13).blk t).view.emb (ix4 u hh r d) = ix4 (pb t) hh (prow t r) d := by
  have h := outFacts t
  have hu : u.val < 1 := u.isLt
  funext a
  apply Fin.ext
  match a with
  | ⟨0, _⟩ => show win0_13.index t (0 : Fin 4) * 1 + 1 * u.val = win0_0.index t (0 : Fin 3); omega
  | ⟨1, _⟩ => show win0_13.index t (1 : Fin 4) * 8 + 1 * hh.val = hh.val; omega
  | ⟨2, _⟩ => show win0_13.index t (2 : Fin 4) * 256 + 1 * r.val = win0_0.index t (1 : Fin 3) * 256 + r.val; omega
  | ⟨3, _⟩ => show win0_13.index t (3 : Fin 4) * 64 + 1 * d.val = d.val; omega

theorem embV (t : Fin cfg0.N) (u : Fin 1) (hh : Fin 8) (r : Fin 256) (d : Fin 64) :
    ((cfg0.win 14).blk t).view.emb (ix4 u hh r d) = ix4 (pb t) hh (prow t r) d := by
  have h := outFacts t
  have hu : u.val < 1 := u.isLt
  funext a
  apply Fin.ext
  match a with
  | ⟨0, _⟩ => show win0_14.index t (0 : Fin 4) * 1 + 1 * u.val = win0_0.index t (0 : Fin 3); omega
  | ⟨1, _⟩ => show win0_14.index t (1 : Fin 4) * 8 + 1 * hh.val = hh.val; omega
  | ⟨2, _⟩ => show win0_14.index t (2 : Fin 4) * 256 + 1 * r.val = win0_0.index t (1 : Fin 3) * 256 + r.val; omega
  | ⟨3, _⟩ => show win0_14.index t (3 : Fin 4) * 64 + 1 * d.val = d.val; omega

theorem projK_at (c : Dev nD) (t : Fin cfg0.N) (r : Fin 256) (col : Fin 512) :
    k0_pay10 (k0_pay8 (iblk m c 0 t) (iblk m c 3 t) (iblk m c 4 t) (iblk m c 7 t)) (k0_pay9 (iblk m c 8 t)) (ix2 r col)
      = projRow (m ((c : Thread nD τ).loc main_arg0) : (⟨S2x4096x2048, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal))
          (m ((c : Thread nD τ).loc main_arg7) : (⟨S512x2048, .f32⟩ : BufTy).Contents (Elt Ideal)) (m ((c : Thread nD τ).loc main_arg8) : (⟨S512, .f32⟩ : BufTy).Contents (Elt Ideal)) (pb t) (prow t r) col := by
  refine (projKey (iblk m c 0 t) (iblk m c 3 t) (iblk m c 4 t) (iblk m c 7 t) (iblk m c 8 t) r col).trans ?_
  rw [readRow m c t r, readVec3 m c t, readVec4 m c t, readW7 m c t col, readVec8 m c t]
  rfl

theorem projV_at (c : Dev nD) (t : Fin cfg0.N) (r : Fin 256) (col : Fin 512) :
    k0_pay11 (k0_pay6 (iblk m c 0 t) (iblk m c 3 t) (iblk m c 4 t)) (iblk m c 9 t) (iblk m c 10 t) (ix2 r col)
      = projRow (m ((c : Thread nD τ).loc main_arg0) : (⟨S2x4096x2048, .f32⟩ : BufTy).Contents (Elt Ideal)) (m ((c : Thread nD τ).loc main_arg3) : (⟨S2048, .f32⟩ : BufTy).Contents (Elt Ideal)) (m ((c : Thread nD τ).loc main_arg4) : (⟨S2048, .f32⟩ : BufTy).Contents (Elt Ideal))
          (m ((c : Thread nD τ).loc main_arg9) : (⟨S512x2048, .f32⟩ : BufTy).Contents (Elt Ideal)) (m ((c : Thread nD τ).loc main_arg10) : (⟨S512, .f32⟩ : BufTy).Contents (Elt Ideal)) (pb t) (prow t r) col := by
  refine (projVal (iblk m c 0 t) (iblk m c 3 t) (iblk m c 4 t) (iblk m c 9 t) (iblk m c 10 t) r col).trans ?_
  rw [readRow m c t r, readVec3 m c t, readVec4 m c t, readW9 m c t col, readVec10 m c t]
  rfl

/-- WHAT POINT t WRITES BACK to the key array is block t of the key result. -/
theorem wroteK (c : Dev nD) (t : Fin cfg0.N) :
    (dats m 0 c).flushed 13 t = ((cfg0.win 13).blk t).view.read (Elt Ideal) (resK m c) := by
  rw [flushed13]
  unfold out0_13
  simp only [View.ld_unit_zero (S := S1x256x2048) hz3, View.ld_unit_zero (S := S1x256x64) hz3,
    View.ld_unit_zero (S := S2048) hz1, View.ld_unit_zero (S := S2048x512) hz2, View.ld_unit_zero (S := S512) hz1]
  funext y
  obtain ⟨u, hh, r, d, rfl⟩ : ∃ (u : Fin 1) (hh : Fin 8) (r : Fin 256) (d : Fin 64), y = ix4 u hh r d :=
    ⟨y 0, y 1, y 2, y 3, eq_ix4 y⟩
  show _ = resK m c (((cfg0.win 13).blk t).view.emb (ix4 u hh r d))
  rw [embK t u hh r d]
  refine (keyBlock _ _ _ (ix4 u hh r d)).trans ?_
  unfold headTiles resK ropedHeads
  exact rope_congr (fun e => projK_at m c t r _) (fun e => readAngle1 m c t r e) (fun e => readAngle2 m c t r e) d

/-- Where the value block's entry (u, hh, r, d) sits in the projected block: row r, column hh · 64 + d. -/
theorem valueCol (u : Fin 1) (hh : Fin 8) (r : Fin 256) (d : Fin 64) :
    ix14_0 (ix4 u hh r d) = ix2 r (headCol (by decide : 8 * 64 = 512) hh d) := by
  funext a
  apply Fin.ext
  match a with
  | ⟨0, _⟩ => rfl
  | ⟨1, _⟩ => rfl

/-- WHAT POINT t WRITES BACK to the value array is block t of the value result. -/
theorem wroteV (c : Dev nD) (t : Fin cfg0.N) :
    (dats m 0 c).flushed 14 t = ((cfg0.win 14).blk t).view.read (Elt Ideal) (resV m c) := by
  rw [flushed14]
  unfold out0_14
  simp only [View.ld_unit_zero (S := S1x256x2048) hz3, View.ld_unit_zero (S := S2048) hz1,
    View.ld_unit_zero (S := S2048x512) hz2, View.ld_unit_zero (S := S512) hz1]
  funext y
  obtain ⟨u, hh, r, d, rfl⟩ : ∃ (u : Fin 1) (hh : Fin 8) (r : Fin 256) (d : Fin 64), y = ix4 u hh r d :=
    ⟨y 0, y 1, y 2, y 3, eq_ix4 y⟩
  show _ = resV m c (((cfg0.win 14).blk t).view.emb (ix4 u hh r d))
  rw [embV t u hh r d]
  refine (canon14_eq _ _ _ _ _ (ix4 u hh r d)).trans ?_
  show k0_pay11 (k0_pay6 (iblk m c 0 t) (iblk m c 3 t) (iblk m c 4 t)) (iblk m c 9 t) (iblk m c 10 t)
      (ix14_0 (ix4 u hh r d)) = _
  rw [valueCol u hh r d]
  exact projV_at m c t r _

theorem embR (t : Fin cfg0.N) (u : Fin 1) (r : Fin 256) (k : Fin 2048) :
    ((cfg0.win 11).blk t).view.emb (ix3 u r k) = ix3 (pb t) (prow t r) k := by
  have h := outFacts t
  have hu : u.val < 1 := u.isLt
  funext a
  apply Fin.ext
  match a with
  | ⟨0, _⟩ => show win0_11.index t (0 : Fin 3) * 1 + 1 * u.val = win0_0.index t (0 : Fin 3); omega
  | ⟨1, _⟩ => show win0_11.index t (1 : Fin 3) * 256 + 1 * r.val = win0_0.index t (1 : Fin 3) * 256 + r.val; omega
  | ⟨2, _⟩ => show win0_11.index t (2 : Fin 3) * 2048 + 1 * k.val = k.val; omega

theorem passCol (u : Fin 1) (r : Fin 256) (k : Fin 2048) : ix11_0 (ix3 u r k) = ix3 (0 : Fin 1) r k := by
  funext a
  apply Fin.ext
  match a with
  | ⟨0, _⟩ => rfl
  | ⟨1, _⟩ => rfl
  | ⟨2, _⟩ => rfl

/-- WHAT POINT t WRITES BACK to the first result is block t of the input itself. -/
theorem wroteR (c : Dev nD) (t : Fin cfg0.N) :
    (dats m 0 c).flushed 11 t = ((cfg0.win 11).blk t).view.read (Elt Ideal) (m ((c : Thread nD τ).loc main_arg0) : (⟨S2x4096x2048, .f32⟩ : BufTy).Contents (Elt Ideal)) := by
  rw [flushed11]
  unfold out0_11
  simp only [View.ld_unit_zero (S := S1x256x2048) hz3]
  funext y
  obtain ⟨u, r, k, rfl⟩ : ∃ (u : Fin 1) (r : Fin 256) (k : Fin 2048), y = ix3 u r k := ⟨y 0, y 1, y 2, eq_ix3 y⟩
  show _ = (m ((c : Thread nD τ).loc main_arg0) : (⟨S2x4096x2048, .f32⟩ : BufTy).Contents (Elt Ideal)) (((cfg0.win 11).blk t).view.emb (ix3 u r k))
  rw [embR t u r k]
  refine (canon11_eq _ (ix3 u r k)).trans ?_
  show iblk m c 0 t (ix11_0 (ix3 u r k)) = _
  rw [passCol u r k]
  exact congrFun (readRow m c t r) k

/-! ## The arrays after the run -/

theorem finalR (c : Dev nD) : (dats m 0 c).arrAt 11 cfg0.N = m ((c : Thread nD τ).loc main_arg0) :=
  (dats m 0 c).arrAt_eq_of_cover 11 _ (fun t _ => wroteR m c t) Cert.LayerHead.Cover.covered11

theorem finalQ (c : Dev nD) : (dats m 0 c).arrAt 12 cfg0.N = resQ m c :=
  (dats m 0 c).arrAt_eq_of_cover 12 (resQ m c) (fun t _ => wroteQ m c t) Cert.LayerHead.Cover.covered12

theorem finalK (c : Dev nD) : (dats m 0 c).arrAt 13 cfg0.N = resK m c :=
  (dats m 0 c).arrAt_eq_of_cover 13 (resK m c) (fun t _ => wroteK m c t) Cert.LayerHead.Cover.covered13

theorem finalV (c : Dev nD) : (dats m 0 c).arrAt 14 cfg0.N = resV m c :=
  (dats m 0 c).arrAt_eq_of_cover 14 (resV m c) (fun t _ => wroteV m c t) Cert.LayerHead.Cover.covered14

/-- Every weakly fair execution of the idealized kernel ends with the first result the input itself, the other three
    the rotated query heads, the rotated key heads and the value heads of the arguments as launched, and the
    arguments unchanged. -/
theorem run : θ_run defs (onTc (τ := τ) (main (F := Ideal))) ⟨m, fun _ => 0, ρ⟩ fun r => ∀ c : Dev nD,
      r.2.mem ((c : Thread nD τ).loc main_v6_0) = m ((c : Thread nD τ).loc main_arg0)
      ∧ r.2.mem ((c : Thread nD τ).loc main_v6_1) = resQ m c
      ∧ r.2.mem ((c : Thread nD τ).loc main_v6_2) = resK m c
      ∧ r.2.mem ((c : Thread nD τ).loc main_v6_3) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalR m c), (h c).2.1.trans (finalQ m c),
      (h c).2.2.1.trans (finalK m c), (h c).2.2.2.1.trans (finalV m c), (h c).2.2.2.2⟩)
    (run_blocks m ρ)

end Cert.LayerHead.Blocks

end
-- ==== Proof.RefValue.lean ====
/-
  The reference program's three projected results, read as mathematics.

  The reference normalises every row (b, s) of the input (mean and variance as row sums divided by 2048, the
  centred row scaled by the reciprocal square root of variance + ε, weighted and shifted), multiplies the
  normalised row against the rows of three weight matrices and adds a bias, cuts each projected row of n · 64
  entries into n heads of 64 and moves the head axis in front of the position axis, and, for the query and the
  key heads, forms  y · cos + rot y · sin  with the angle tables read at (b, s, d) for every head, where rot y
  joins the negated upper half of a head to its lower half.

  Each step below reads one stage of that chain at an index built from its coordinates and identifies it with
  the corresponding function of the specification: the mean, the variance, the normalised row, a projection at
  (b, s, o), the heads at (b, hh, s, d) — where the flat position ((b · 4096 + s) · n + hh) · 64 + d of the
  reshaped array is b · (4096 · n · 64) + s · (n · 64) + (hh · 64 + d), so its column is hh · 64 + d —, the
  exchanged heads by cases on d < 32, and last the three results as whole arrays.  Beyond unfolding, the
  arguments are: the row sums start from the constant 0; the host's negation is −x; and a joined array reads
  its first piece below the first piece's extent and its second piece, shifted by that extent, above it.
-/
import proofs.«172209_j10256381903693_1_alg».proof.Proof.Gen.ReferenceIdeal.Read
import proofs.«172209_j10256381903693_1_alg».proof.Proof.Spec
import Idealize.ShloMosaic.Lib.ValueIdx
import Idealize.ShloMosaic.Lib.Pipeline.Value
import Idealize.ShloMosaic.PureOps.Ideal.Laws

noncomputable section

namespace Cert.LayerHead.RefValue

open Cert.ReferenceIdeal Cert.ReferenceIdeal.Read Idealize.ShloMosaic Idealize.ShloMosaic.ValueIdx
open scoped BigOperators

/-- The first row sum, divided by the row length, is the mean of row (b, s). -/
theorem ref_mean (x0 : (⟨S2x4096x2048, .f32⟩ : BufTy).Contents (Elt Ideal)) (b : Fin 2) (s : Fin 4096) (z : Fin 1) :
    Read.val_main_v3 (F := Ideal) x0 (ix3 b s z) = mean (fun k => x0 (ix3 b s k)) := by
  have e : ∀ k : Fin 2048, idx_main_v0 (idx_main_v1 (ix3 b s z)) k = ix3 b s k := fun k =>
    funext fun a => Fin.ext (by match a with | ⟨0, _⟩ => rfl | ⟨1, _⟩ => rfl | ⟨2, _⟩ => rfl)
  rw [val_main_v3_apply, val_main_v1_apply, val_main_v0_apply, val_main_cst_apply, val_main_v2_apply,
    val_main_cst_0_apply]
  simp only [e, Ideal.hostDivf_def, Ideal.ofBits_def, Ideal.ofBits_zero_f32, zero_add]
  rfl

/-- The second row sum, of the squared centred entries, divided by the row length, is the variance of row (b, s). -/
theorem ref_variance (x0 : (⟨S2x4096x2048, .f32⟩ : BufTy).Contents (Elt Ideal)) (b : Fin 2) (s : Fin 4096) (z : Fin 1) :
    Read.val_main_v10 (F := Ideal) x0 (ix3 b s z) = variance (fun k => x0 (ix3 b s k)) := by
  have e : ∀ k : Fin 2048, idx_main_v7 (idx_main_v8 (ix3 b s z)) k = ix3 b s k := fun k =>
    funext fun a => Fin.ext (by match a with | ⟨0, _⟩ => rfl | ⟨1, _⟩ => rfl | ⟨2, _⟩ => rfl)
  have e4 : ∀ k : Fin 2048, idx_main_v4 (ix3 b s k) = ix3 b s (0 : Fin 1) := fun k =>
    funext fun a => Fin.ext (by match a with | ⟨0, _⟩ => rfl | ⟨1, _⟩ => rfl | ⟨2, _⟩ => rfl)
  have sq : ∀ k : Fin 2048, val_main_v6 (F := Ideal) x0 (ix3 b s k)
      = (x0 (ix3 b s k) - mean (fun k => x0 (ix3 b s k))) * (x0 (ix3 b s k) - mean (fun k => x0 (ix3 b s k))) := by
    intro k
    rw [val_main_v6_apply, val_main_v5_apply, val_main_v4_apply, e4, ref_mean]
    rfl
  rw [val_main_v10_apply, val_main_v8_apply, val_main_v7_apply, val_main_cst_1_apply, val_main_v9_apply,
    val_main_cst_2_apply]
  simp only [e, sq, Ideal.hostDivf_def, Ideal.ofBits_def, Ideal.ofBits_zero_f32, zero_add]
  rfl

/-- The activation both programs project: row (b, s) of the input, normalised. -/
theorem ref_normed (x0 : (⟨S2x4096x2048, .f32⟩ : BufTy).Contents (Elt Ideal))
    (x3 x4 : (⟨S2048, .f32⟩ : BufTy).Contents (Elt Ideal)) (b : Fin 2) (s : Fin 4096) (k : Fin 2048) :
    Read.val_main_v23 (F := Ideal) x0 x3 x4 (ix3 b s k) = normedRow x0 x3 x4 b s k := by
  have e11 : idx_main_v11 (ix3 b s k) = ix3 b s (0 : Fin 1) :=
    funext fun a => Fin.ext (by match a with | ⟨0, _⟩ => rfl | ⟨1, _⟩ => rfl | ⟨2, _⟩ => rfl)
  have e16 : idx_main_v16 (ix3 b s k) = ix3 b s (0 : Fin 1) :=
    funext fun a => Fin.ext (by match a with | ⟨0, _⟩ => rfl | ⟨1, _⟩ => rfl | ⟨2, _⟩ => rfl)
  have e19 : idx_main_v18 (idx_main_v19 (ix3 b s k)) = ix1 k :=
    funext fun a => Fin.ext (by match a with | ⟨0, _⟩ => rfl)
  have e22 : idx_main_v21 (idx_main_v22 (ix3 b s k)) = ix1 k :=
    funext fun a => Fin.ext (by match a with | ⟨0, _⟩ => rfl)
  rw [val_main_v23_apply, val_main_v20_apply, val_main_v17_apply, val_main_v12_apply, val_main_v11_apply, e11, ref_mean,
    val_main_v16_apply, e16, val_main_v15_apply, val_main_v14_apply, ref_variance, val_main_v13_apply, val_main_cst_3_apply,
    val_main_v19_apply, val_main_v18_apply, e19, val_main_v22_apply, val_main_v21_apply, e22]
  rfl

/-- The q projection at (b, s, o): the normalised row against row o of the weight matrix, plus the bias at o. -/
theorem ref_proj_q (x0 : (⟨S2x4096x2048, .f32⟩ : BufTy).Contents (Elt Ideal))
    (x3 x4 : (⟨S2048, .f32⟩ : BufTy).Contents (Elt Ideal)) (x5 : (⟨S2048x2048, .f32⟩ : BufTy).Contents (Elt Ideal))
    (x6 : (⟨S2048, .f32⟩ : BufTy).Contents (Elt Ideal)) (b : Fin 2) (s : Fin 4096) (o : Fin 2048) :
    Read.val_main_v27 (F := Ideal) x0 x3 x4 x5 x6 (ix3 b s o) = projRow x0 x3 x4 x5 x6 b s o := by
  have el : ∀ k : Fin 2048, lidx_main_v24 (ix3 b s o) k = ix3 b s k := fun k =>
    funext fun a => Fin.ext (by match a with | ⟨0, _⟩ => rfl | ⟨1, _⟩ => rfl | ⟨2, _⟩ => rfl)
  have er : ∀ k : Fin 2048, ridx_main_v24 (ix3 b s o) k = ix2 o k := fun k =>
    funext fun a => Fin.ext (by match a with | ⟨0, _⟩ => rfl | ⟨1, _⟩ => rfl)
  have eb : idx_main_v25 (idx_main_v26 (ix3 b s o)) = ix1 o :=
    funext fun a => Fin.ext (by match a with | ⟨0, _⟩ => rfl)
  rw [val_main_v27_apply, val_main_v24_apply, val_main_v26_apply, val_main_v25_apply, eb]
  simp only [el, er, ref_normed, Ideal.addf_def]
  rfl

/-- The k projection at (b, s, o): the normalised row against row o of the weight matrix, plus the bias at o. -/
theorem ref_proj_k (x0 : (⟨S2x4096x2048, .f32⟩ : BufTy).Contents (Elt Ideal))
    (x3 x4 : (⟨S2048, .f32⟩ : BufTy).Contents (Elt Ideal)) (x7 : (⟨S512x2048, .f32⟩ : BufTy).Contents (Elt Ideal))
    (x8 : (⟨S512, .f32⟩ : BufTy).Contents (Elt Ideal)) (b : Fin 2) (s : Fin 4096) (o : Fin 512) :
    Read.val_main_v31 (F := Ideal) x0 x3 x4 x7 x8 (ix3 b s o) = projRow x0 x3 x4 x7 x8 b s o := by
  have el : ∀ k : Fin 2048, lidx_main_v28 (ix3 b s o) k = ix3 b s k := fun k =>
    funext fun a => Fin.ext (by match a with | ⟨0, _⟩ => rfl | ⟨1, _⟩ => rfl | ⟨2, _⟩ => rfl)
  have er : ∀ k : Fin 2048, ridx_main_v28 (ix3 b s o) k = ix2 o k := fun k =>
    funext fun a => Fin.ext (by match a with | ⟨0, _⟩ => rfl | ⟨1, _⟩ => rfl)
  have eb : idx_main_v29 (idx_main_v30 (ix3 b s o)) = ix1 o :=
    funext fun a => Fin.ext (by match a with | ⟨0, _⟩ => rfl)
  rw [val_main_v31_apply, val_main_v28_apply, val_main_v30_apply, val_main_v29_apply, eb]
  simp only [el, er, ref_normed, Ideal.addf_def]
  rfl

/-- The v projection at (b, s, o): the normalised row against row o of the weight matrix, plus the bias at o. -/
theorem ref_proj_v (x0 : (⟨S2x4096x2048, .f32⟩ : BufTy).Contents (Elt Ideal))
    (x3 x4 : (⟨S2048, .f32⟩ : BufTy).Contents (Elt Ideal)) (x9 : (⟨S512x2048, .f32⟩ : BufTy).Contents (Elt Ideal))
    (x10 : (⟨S512, .f32⟩ : BufTy).Contents (Elt Ideal)) (b : Fin 2) (s : Fin 4096) (o : Fin 512) :
    Read.val_main_v35 (F := Ideal) x0 x3 x4 x9 x10 (ix3 b s o) = projRow x0 x3 x4 x9 x10 b s o := by
  have el : ∀ k : Fin 2048, lidx_main_v32 (ix3 b s o) k = ix3 b s k := fun k =>
    funext fun a => Fin.ext (by match a with | ⟨0, _⟩ => rfl | ⟨1, _⟩ => rfl | ⟨2, _⟩ => rfl)
  have er : ∀ k : Fin 2048, ridx_main_v32 (ix3 b s o) k = ix2 o k := fun k =>
    funext fun a => Fin.ext (by match a with | ⟨0, _⟩ => rfl | ⟨1, _⟩ => rfl)
  have eb : idx_main_v33 (idx_main_v34 (ix3 b s o)) = ix1 o :=
    funext fun a => Fin.ext (by match a with | ⟨0, _⟩ => rfl)
  rw [val_main_v35_apply, val_main_v32_apply, val_main_v34_apply, val_main_v33_apply, eb]
  simp only [el, er, ref_normed, Ideal.addf_def]
  rfl

/-- The query projection cut into heads and the head axis moved in front of the position axis: entry (b, hh, s, d) is
    the projected row (b, s) at column hh · 64 + d, because (((b · 4096 + s) · 32 + hh) · 64 + d) splits as
    b · 8388608 + s · 2048 + (hh · 64 + d). -/
theorem ref_heads_q (x0 : (⟨S2x4096x2048, .f32⟩ : BufTy).Contents (Elt Ideal))
    (x3 x4 : (⟨S2048, .f32⟩ : BufTy).Contents (Elt Ideal)) (x5 : (⟨S2048x2048, .f32⟩ : BufTy).Contents (Elt Ideal))
    (x6 : (⟨S2048, .f32⟩ : BufTy).Contents (Elt Ideal)) (b : Fin 2) (hh : Fin 32) (s : Fin 4096) (d : Fin 64) :
    Read.val_main_v37 (F := Ideal) x0 x3 x4 x5 x6 (ix4 b hh s d)
      = projRow x0 x3 x4 x5 x6 b s (headCol (by decide : 32 * 64 = 2048) hh d) := by
  have e : idx_main_v36 (idx_main_v37 (ix4 b hh s d)) = ix3 b s (headCol (by decide : 32 * 64 = 2048) hh d) :=
    funext fun a => Fin.ext (by
      have hb := b.isLt; have hs := s.isLt; have hhh := hh.isLt; have hd := d.isLt
      match a with
      | ⟨0, _⟩ => show (((b.val * 4096 + s.val) * 32 + hh.val) * 64 + d.val) / 8388608 = b.val; omega
      | ⟨1, _⟩ => show (((b.val * 4096 + s.val) * 32 + hh.val) * 64 + d.val) / 2048 % 4096 = s.val; omega
      | ⟨2, _⟩ => show (((b.val * 4096 + s.val) * 32 + hh.val) * 64 + d.val) % 2048 = hh.val * 64 + d.val; omega)
  rw [val_main_v37_apply, val_main_v36_apply, e, ref_proj_q]

/-- The key projection cut into heads and the head axis moved in front of the position axis: entry (b, hh, s, d) is
    the projected row (b, s) at column hh · 64 + d, because (((b · 4096 + s) · 8 + hh) · 64 + d) splits as
    b · 2097152 + s · 512 + (hh · 64 + d). -/
theorem ref_heads_k (x0 : (⟨S2x4096x2048, .f32⟩ : BufTy).Contents (Elt Ideal))
    (x3 x4 : (⟨S2048, .f32⟩ : BufTy).Contents (Elt Ideal)) (x7 : (⟨S512x2048, .f32⟩ : BufTy).Contents (Elt Ideal))
    (x8 : (⟨S512, .f32⟩ : BufTy).Contents (Elt Ideal)) (b : Fin 2) (hh : Fin 8) (s : Fin 4096) (d : Fin 64) :
    Read.val_main_v39 (F := Ideal) x0 x3 x4 x7 x8 (ix4 b hh s d)
      = projRow x0 x3 x4 x7 x8 b s (headCol (by decide : 8 * 64 = 512) hh d) := by
  have e : idx_main_v38 (idx_main_v39 (ix4 b hh s d)) = ix3 b s (headCol (by decide : 8 * 64 = 512) hh d) :=
    funext fun a => Fin.ext (by
      have hb := b.isLt; have hs := s.isLt; have hhh := hh.isLt; have hd := d.isLt
      match a with
      | ⟨0, _⟩ => show (((b.val * 4096 + s.val) * 8 + hh.val) * 64 + d.val) / 2097152 = b.val; omega
      | ⟨1, _⟩ => show (((b.val * 4096 + s.val) * 8 + hh.val) * 64 + d.val) / 512 % 4096 = s.val; omega
      | ⟨2, _⟩ => show (((b.val * 4096 + s.val) * 8 + hh.val) * 64 + d.val) % 512 = hh.val * 64 + d.val; omega)
  rw [val_main_v39_apply, val_main_v38_apply, e, ref_proj_k]

/-- The value projection cut into heads and the head axis moved in front of the position axis: entry (b, hh, s, d) is
    the projected row (b, s) at column hh · 64 + d, because (((b · 4096 + s) · 8 + hh) · 64 + d) splits as
    b · 2097152 + s · 512 + (hh · 64 + d). -/
theorem ref_heads_v (x0 : (⟨S2x4096x2048, .f32⟩ : BufTy).Contents (Elt Ideal))
    (x3 x4 : (⟨S2048, .f32⟩ : BufTy).Contents (Elt Ideal)) (x9 : (⟨S512x2048, .f32⟩ : BufTy).Contents (Elt Ideal))
    (x10 : (⟨S512, .f32⟩ : BufTy).Contents (Elt Ideal)) (b : Fin 2) (hh : Fin 8) (s : Fin 4096) (d : Fin 64) :
    Read.val_main_v41 (F := Ideal) x0 x3 x4 x9 x10 (ix4 b hh s d)
      = projRow x0 x3 x4 x9 x10 b s (headCol (by decide : 8 * 64 = 512) hh d) := by
  have e : idx_main_v40 (idx_main_v41 (ix4 b hh s d)) = ix3 b s (headCol (by decide : 8 * 64 = 512) hh d) :=
    funext fun a => Fin.ext (by
      have hb := b.isLt; have hs := s.isLt; have hhh := hh.isLt; have hd := d.isLt
      match a with
      | ⟨0, _⟩ => show (((b.val * 4096 + s.val) * 8 + hh.val) * 64 + d.val) / 2097152 = b.val; omega
      | ⟨1, _⟩ => show (((b.val * 4096 + s.val) * 8 + hh.val) * 64 + d.val) / 512 % 4096 = s.val; omega
      | ⟨2, _⟩ => show (((b.val * 4096 + s.val) * 8 + hh.val) * 64 + d.val) % 512 = hh.val * 64 + d.val; omega)
  rw [val_main_v41_apply, val_main_v40_apply, e, ref_proj_v]

/-- The query heads with their halves exchanged, the half moved to the front negated: the joined array takes entry d
    from the negated upper half (at d + 32) when d < 32 and from the lower half (at d − 32) otherwise. -/
theorem ref_rot_q (x0 : (⟨S2x4096x2048, .f32⟩ : BufTy).Contents (Elt Ideal))
    (x3 x4 : (⟨S2048, .f32⟩ : BufTy).Contents (Elt Ideal)) (x5 : (⟨S2048x2048, .f32⟩ : BufTy).Contents (Elt Ideal))
    (x6 : (⟨S2048, .f32⟩ : BufTy).Contents (Elt Ideal)) (b : Fin 2) (hh : Fin 32) (s : Fin 4096) (d : Fin 64) :
    Read.val_main_v49 (F := Ideal) x0 x3 x4 x5 x6 (ix4 b hh s d)
      = rot (fun e => projRow x0 x3 x4 x5 x6 b s (headCol (by decide : 32 * 64 = 2048) hh e)) d := by
  unfold rot val_main_v49
  by_cases h : d.val < 32
  · have eu : idx_main_v47 (ix4 b hh s (⟨d.val, h⟩ : Fin 32)) = ix4 b hh s (⟨d.val + 32, by omega⟩ : Fin 64) :=
      funext fun a => Fin.ext (by
        match a with
        | ⟨0, _⟩ => rfl
        | ⟨1, _⟩ => rfl
        | ⟨2, _⟩ => rfl
        | ⟨3, _⟩ => show 32 + d.val = d.val + 32; omega)
    rw [dif_pos h, concatenate_pair_apply_left (t := S2x32x4096x64) (s₁ := S2x32x4096x32) (s₂ := S2x32x4096x32) _ _ _ _ (ix4 b hh s d) rfl (ix4 b hh s (⟨d.val, h⟩ : Fin 32))
      (fun a => by match a with | ⟨0, _⟩ => rfl | ⟨1, _⟩ => rfl | ⟨2, _⟩ => rfl | ⟨3, _⟩ => rfl),
      val_main_v48_apply, val_main_v47_apply, eu, ref_heads_q]
    rfl
  · have el : idx_main_v46 (ix4 b hh s (⟨d.val - 32, by have := d.isLt; omega⟩ : Fin 32))
        = ix4 b hh s (⟨d.val - 32, by have := d.isLt; omega⟩ : Fin 64) :=
      funext fun a => Fin.ext (by
        match a with
        | ⟨0, _⟩ => rfl
        | ⟨1, _⟩ => rfl
        | ⟨2, _⟩ => rfl
        | ⟨3, _⟩ => rfl)
    rw [dif_neg h, concatenate_pair_apply_right (t := S2x32x4096x64) (s₁ := S2x32x4096x32) (s₂ := S2x32x4096x32) _ _ _ _ (ix4 b hh s d) rfl rfl
      (ix4 b hh s (⟨d.val - 32, by have := d.isLt; omega⟩ : Fin 32))
      (fun a ha => by
        match a with
        | ⟨0, _⟩ => rfl
        | ⟨1, _⟩ => rfl
        | ⟨2, _⟩ => rfl
        | ⟨3, _⟩ => exact absurd rfl ha)
      (by show d.val - 32 + 32 = d.val; omega),
      val_main_v46_apply, el, ref_heads_q]

/-- The key heads with their halves exchanged, the half moved to the front negated: the joined array takes entry d
    from the negated upper half (at d + 32) when d < 32 and from the lower half (at d − 32) otherwise. -/
theorem ref_rot_k (x0 : (⟨S2x4096x2048, .f32⟩ : BufTy).Contents (Elt Ideal))
    (x3 x4 : (⟨S2048, .f32⟩ : BufTy).Contents (Elt Ideal)) (x7 : (⟨S512x2048, .f32⟩ : BufTy).Contents (Elt Ideal))
    (x8 : (⟨S512, .f32⟩ : BufTy).Contents (Elt Ideal)) (b : Fin 2) (hh : Fin 8) (s : Fin 4096) (d : Fin 64) :
    Read.val_main_v58 (F := Ideal) x0 x3 x4 x7 x8 (ix4 b hh s d)
      = rot (fun e => projRow x0 x3 x4 x7 x8 b s (headCol (by decide : 8 * 64 = 512) hh e)) d := by
  unfold rot val_main_v58
  by_cases h : d.val < 32
  · have eu : idx_main_v56 (ix4 b hh s (⟨d.val, h⟩ : Fin 32)) = ix4 b hh s (⟨d.val + 32, by omega⟩ : Fin 64) :=
      funext fun a => Fin.ext (by
        match a with
        | ⟨0, _⟩ => rfl
        | ⟨1, _⟩ => rfl
        | ⟨2, _⟩ => rfl
        | ⟨3, _⟩ => show 32 + d.val = d.val + 32; omega)
    rw [dif_pos h, concatenate_pair_apply_left (t := S2x8x4096x64) (s₁ := S2x8x4096x32) (s₂ := S2x8x4096x32) _ _ _ _ (ix4 b hh s d) rfl (ix4 b hh s (⟨d.val, h⟩ : Fin 32))
      (fun a => by match a with | ⟨0, _⟩ => rfl | ⟨1, _⟩ => rfl | ⟨2, _⟩ => rfl | ⟨3, _⟩ => rfl),
      val_main_v57_apply, val_main_v56_apply, eu, ref_heads_k]
    rfl
  · have el : idx_main_v55 (ix4 b hh s (⟨d.val - 32, by have := d.isLt; omega⟩ : Fin 32))
        = ix4 b hh s (⟨d.val - 32, by have := d.isLt; omega⟩ : Fin 64) :=
      funext fun a => Fin.ext (by
        match a with
        | ⟨0, _⟩ => rfl
        | ⟨1, _⟩ => rfl
        | ⟨2, _⟩ => rfl
        | ⟨3, _⟩ => rfl)
    rw [dif_neg h, concatenate_pair_apply_right (t := S2x8x4096x64) (s₁ := S2x8x4096x32) (s₂ := S2x8x4096x32) _ _ _ _ (ix4 b hh s d) rfl rfl
      (ix4 b hh s (⟨d.val - 32, by have := d.isLt; omega⟩ : Fin 32))
      (fun a ha => by
        match a with
        | ⟨0, _⟩ => rfl
        | ⟨1, _⟩ => rfl
        | ⟨2, _⟩ => rfl
        | ⟨3, _⟩ => exact absurd rfl ha)
      (by show d.val - 32 + 32 = d.val; omega),
      val_main_v55_apply, el, ref_heads_k]

/-- The rotated query heads: every head of the query projection times the cosine table plus the exchanged head times the
    sine table, the tables read at (b, s, d) for every head. -/
theorem ref_q (x0 : (⟨S2x4096x2048, .f32⟩ : BufTy).Contents (Elt Ideal))
    (x1 x2 : (⟨S2x4096x64, .f32⟩ : BufTy).Contents (Elt Ideal)) (x3 x4 : (⟨S2048, .f32⟩ : BufTy).Contents (Elt Ideal))
    (x5 : (⟨S2048x2048, .f32⟩ : BufTy).Contents (Elt Ideal)) (x6 : (⟨S2048, .f32⟩ : BufTy).Contents (Elt Ideal)) :
    Read.val_main_v52 (F := Ideal) x0 x1 x2 x3 x4 x5 x6
      = fun i => Cert.LayerHead.ropedHeads x0 x1 x2 x3 x4 (by decide : 32 * 64 = 2048) x5 x6 (i 0) (i 1) (i 2) (i 3) := by
  funext i
  obtain ⟨b, hh, s, d, rfl⟩ : ∃ (b : Fin 2) (hh : Fin 32) (s : Fin 4096) (d : Fin 64), i = ix4 b hh s d :=
    ⟨i 0, i 1, i 2, i 3, eq_ix4 i⟩
  have ec : idx_main_v42 (idx_main_v44 (ix4 b hh s d)) = ix3 b s d :=
    funext fun a => Fin.ext (by match a with | ⟨0, _⟩ => rfl | ⟨1, _⟩ => rfl | ⟨2, _⟩ => rfl)
  have es : idx_main_v43 (idx_main_v50 (ix4 b hh s d)) = ix3 b s d :=
    funext fun a => Fin.ext (by match a with | ⟨0, _⟩ => rfl | ⟨1, _⟩ => rfl | ⟨2, _⟩ => rfl)
  rw [val_main_v52_apply, val_main_v45_apply, ref_heads_q, val_main_v44_apply, val_main_v42_apply, ec,
    val_main_v51_apply, ref_rot_q, val_main_v50_apply, val_main_v43_apply, es]
  rfl

/-- The rotated key heads: every head of the key projection times the cosine table plus the exchanged head times the
    sine table, the tables read at (b, s, d) for every head. -/
theorem ref_k (x0 : (⟨S2x4096x2048, .f32⟩ : BufTy).Contents (Elt Ideal))
    (x1 x2 : (⟨S2x4096x64, .f32⟩ : BufTy).Contents (Elt Ideal)) (x3 x4 : (⟨S2048, .f32⟩ : BufTy).Contents (Elt Ideal))
    (x7 : (⟨S512x2048, .f32⟩ : BufTy).Contents (Elt Ideal)) (x8 : (⟨S512, .f32⟩ : BufTy).Contents (Elt Ideal)) :
    Read.val_main_v61 (F := Ideal) x0 x1 x2 x3 x4 x7 x8
      = fun i => Cert.LayerHead.ropedHeads x0 x1 x2 x3 x4 (by decide : 8 * 64 = 512) x7 x8 (i 0) (i 1) (i 2) (i 3) := by
  funext i
  obtain ⟨b, hh, s, d, rfl⟩ : ∃ (b : Fin 2) (hh : Fin 8) (s : Fin 4096) (d : Fin 64), i = ix4 b hh s d :=
    ⟨i 0, i 1, i 2, i 3, eq_ix4 i⟩
  have ec : idx_main_v42 (idx_main_v53 (ix4 b hh s d)) = ix3 b s d :=
    funext fun a => Fin.ext (by match a with | ⟨0, _⟩ => rfl | ⟨1, _⟩ => rfl | ⟨2, _⟩ => rfl)
  have es : idx_main_v43 (idx_main_v59 (ix4 b hh s d)) = ix3 b s d :=
    funext fun a => Fin.ext (by match a with | ⟨0, _⟩ => rfl | ⟨1, _⟩ => rfl | ⟨2, _⟩ => rfl)
  rw [val_main_v61_apply, val_main_v54_apply, ref_heads_k, val_main_v53_apply, val_main_v42_apply, ec,
    val_main_v60_apply, ref_rot_k, val_main_v59_apply, val_main_v43_apply, es]
  rfl

/-- The value heads: the value projection cut into heads, not rotated. -/
theorem ref_v (x0 : (⟨S2x4096x2048, .f32⟩ : BufTy).Contents (Elt Ideal))
    (x3 x4 : (⟨S2048, .f32⟩ : BufTy).Contents (Elt Ideal)) (x9 : (⟨S512x2048, .f32⟩ : BufTy).Contents (Elt Ideal))
    (x10 : (⟨S512, .f32⟩ : BufTy).Contents (Elt Ideal)) :
    Read.val_main_v41 (F := Ideal) x0 x3 x4 x9 x10
      = fun i => Cert.LayerHead.plainHeads x0 x3 x4 (by decide : 8 * 64 = 512) x9 x10 (i 0) (i 1) (i 2) (i 3) := by
  funext i
  obtain ⟨b, hh, s, d, rfl⟩ : ∃ (b : Fin 2) (hh : Fin 8) (s : Fin 4096) (d : Fin 64), i = ix4 b hh s d :=
    ⟨i 0, i 1, i 2, i 3, eq_ix4 i⟩
  exact ref_heads_v x0 x3 x4 x9 x10 b hh s d

end Cert.LayerHead.RefValue

end
-- ==== Proof.lean ====
/-
  The layer head of a transformer block: every row of 2048 entries of the input is normalised (centred by its
  mean, scaled by the reciprocal square root of its variance plus ε, weighted and shifted entry by entry); the
  normalised rows are projected three times (query, key, value: a sum over the row against each row of a weight
  matrix, plus a bias); the projections are cut into heads of 64 entries, and the query and key heads are rotated
  by the position's cosines and sines.  Four arrays result: the input itself, the rotated query heads, the rotated
  key heads and the value heads, the last three indexed (batch, head, position, entry).

  The kernel works block by block: each of its 32 grid points takes the 256 positions 256 · s … 256 · s + 255 of one
  batch, normalises those rows, multiplies them by the weight matrices (which the host has transposed for it),
  rotates head by head and writes each head's tile where it belongs in the result.  The reference does the same on
  the whole arrays and moves the head axis by a transpose.

  Over the extended reals the two agree entry by entry, because everything is done row by row: a row of a block
  is a row of the array, its mean, variance and projections are sums over that row alone, and the rotation of a
  head reads only that head.  The only places the two programs differ are conventions that cost nothing here:
  the kernel rounds to a narrower format before its products (the identity on the extended reals), accumulates
  its products into a zero block and its lane sums from zero (0 + x = x), and negates by 0 − x (= −x).  No
  finiteness of the inputs is needed: commutativity and associativity are never used across different terms, only
  the equality of one sum with itself.

  The kernel's side: the blocks a point writes back are the blocks of the four arrays above, and the 32 points'
  blocks fill each array.  The reference's side: its operations, read one at a time at an index, compose to the
  same functions.  The word-level kernel's idealization rewrote no operation, so that claim is trivial.
-/
import proofs.«172209_j10256381903693_1_alg».proof.Defs
import proofs.«172209_j10256381903693_1_alg».proof.Proof.Gen.Kernel
import proofs.«172209_j10256381903693_1_alg».proof.Proof.Gen.Kernel.Skeleton
import proofs.«172209_j10256381903693_1_alg».proof.Proof.Gen.Kernel.Launch
import proofs.«172209_j10256381903693_1_alg».proof.Proof.Gen.Kernel.Points
import proofs.«172209_j10256381903693_1_alg».proof.Proof.Gen.Kernel.Frame
import proofs.«172209_j10256381903693_1_alg».proof.Proof.Gen.KernelIdeal
import proofs.«172209_j10256381903693_1_alg».proof.Proof.Gen.KernelIdeal.Skeleton
import proofs.«172209_j10256381903693_1_alg».proof.Proof.Gen.KernelIdeal.Launch
import proofs.«172209_j10256381903693_1_alg».proof.Proof.Gen.KernelIdeal.Points
import proofs.«172209_j10256381903693_1_alg».proof.Proof.Gen.KernelIdeal.Frame
import proofs.«172209_j10256381903693_1_alg».proof.Proof.Gen.KernelIdeal.Value
import proofs.«172209_j10256381903693_1_alg».proof.Proof.Gen.ReferenceIdeal
import proofs.«172209_j10256381903693_1_alg».proof.Proof.Gen.ReferenceIdeal.Run
import proofs.«172209_j10256381903693_1_alg».proof.Proof.Gen.ReferenceIdeal.Read
import proofs.«172209_j10256381903693_1_alg».proof.Proof.Gen.Pre_finite_inputs
import proofs.«172209_j10256381903693_1_alg».proof.Proof.Blocks
import proofs.«172209_j10256381903693_1_alg».proof.Proof.RefValue
import Idealize.ShloMosaic.Adequacy
import Idealize.ShloMosaic.Init

noncomputable section

namespace Cert.Proof

open Idealize.ShloMosaic Idealize.SL.Sem

/-- From memories that agree on the arguments, the idealized kernel and the idealized reference end with the same
    four arrays: the input, and the query, key and value heads of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.LayerHead.Blocks.resQ m c, fun c => Cert.LayerHead.Blocks.resK m c,
    fun c => Cert.LayerHead.Blocks.resV m c, Cert.LayerHead.Blocks.run m ρ, ?_⟩
  refine (θ_run Cert.ReferenceIdeal.defs _ _).mono (fun r h c => ?_)
    (Cert.ReferenceIdeal.Value.run (F := Ideal) m' ρ')
  obtain ⟨h0, h1, h2, h3, hrest⟩ := h c
  obtain ⟨a0, a1, a2, a3, a4, a5, a6, a7, a8, a9, a10⟩ := hagree c
  refine ⟨h0.trans a0, h1.trans ?_, h2.trans ?_, h3.trans ?_, hrest⟩
  · rw [Cert.ReferenceIdeal.Read.val_main_v52_eq, Cert.LayerHead.RefValue.ref_q, a0, a1, a2, a3, a4, a5, a6]
    rfl
  · rw [Cert.ReferenceIdeal.Read.val_main_v61_eq, Cert.LayerHead.RefValue.ref_k, a0, a1, a2, a3, a4, a7, a8]
    rfl
  · rw [Cert.ReferenceIdeal.Read.val_main_v41_eq, Cert.LayerHead.RefValue.ref_v, a0, a3, a4, a9, a10]
    rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2.2.2)
      (Cert.ReferenceIdeal.Value.run (F := Ideal) m ρ),
    trivial,
    algebraic⟩

end Cert.Proof

end
